-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x1024 : Shape := ⟨3, ![2, 8192, 1024]⟩
abbrev S3072x1024 : Shape := ⟨2, ![3072, 1024]⟩
abbrev S1024x1024 : Shape := ⟨2, ![1024, 1024]⟩
abbrev S8192 : Shape := ⟨1, ![8192]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x8192x1024 .f32) (main_arg1 : FVec F S3072x1024 .f32) (main_arg2 : FVec F S1024x1024 .f32) (main_arg3 : IVec S8192 32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x8192x1024 : Shape := ⟨3, ![2, 8192, 1024]⟩
abbrev S3072x1024 : Shape := ⟨2, ![3072, 1024]⟩
abbrev S1024x1024 : Shape := ⟨2, ![1024, 1024]⟩
abbrev S8192 : Shape := ⟨1, ![8192]⟩
abbrev S_ : Shape := ⟨0, ![]⟩
abbrev S16384x1024 : Shape := ⟨2, ![16384, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S2x64x128x16x64 : Shape := ⟨5, ![2, 64, 128, 16, 64]⟩
abbrev S64x2x16x128x64 : Shape := ⟨5, ![64, 2, 16, 128, 64]⟩
abbrev S64x32x128x64 : Shape := ⟨4, ![64, 32, 128, 64]⟩
abbrev S2x8192x16x64 : Shape := ⟨4, ![2, 8192, 16, 64]⟩
abbrev S2x64x64x16x64 : Shape := ⟨5, ![2, 64, 64, 16, 64]⟩
abbrev S64x2x16x64x64 : Shape := ⟨5, ![64, 2, 16, 64, 64]⟩
abbrev S64x32x64x64 : Shape := ⟨4, ![64, 32, 64, 64]⟩
abbrev S1x32x128x64 : Shape := ⟨4, ![1, 32, 128, 64]⟩
abbrev S1x32x64x64 : Shape := ⟨4, ![1, 32, 64, 64]⟩
abbrev S32x128x64 : Shape := ⟨3, ![32, 128, 64]⟩
abbrev S32x64x64 : Shape := ⟨3, ![32, 64, 64]⟩
abbrev S32x128 : Shape := ⟨2, ![32, 128]⟩
abbrev S32x128x1 : Shape := ⟨3, ![32, 128, 1]⟩

abbrev nBuf : Space → Nat
  | .hbm => 77
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S3072x1024, .f32⟩
  | .hbm, ⟨2, _⟩ => ⟨S1024x1024, .f32⟩
  | .hbm, ⟨3, _⟩ => ⟨S8192, .i32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S16384x1024, .f32⟩
  | .hbm, ⟨19, _⟩ => ⟨S16384x1024, .bf16⟩
  | .hbm, ⟨20, _⟩ => ⟨S16384x1024, .bf16⟩
  | .hbm, ⟨21, _⟩ => ⟨S16384x1024, .bf16⟩
  | .hbm, ⟨22, _⟩ => ⟨S64, .i32⟩
  | .hbm, ⟨23, _⟩ => ⟨S64x1, .i32⟩
  | .hbm, ⟨24, _⟩ => ⟨S_, .i32⟩
  | .hbm, ⟨25, _⟩ => ⟨S64x1, .i32⟩
  | .hbm, ⟨26, _⟩ => ⟨S64x1, .i32⟩
  | .hbm, ⟨27, _⟩ => ⟨S64, .i32⟩
  | .hbm, ⟨28, _⟩ => ⟨S1x64, .i32⟩
  | .hbm, ⟨29, _⟩ => ⟨S_, .i32⟩
  | .hbm, ⟨30, _⟩ => ⟨S1x64, .i32⟩
  | .hbm, ⟨31, _⟩ => ⟨S1x64, .i32⟩
  | .hbm, ⟨32, _⟩ => ⟨S64x64, .i32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S64x64, .i32⟩
  | .hbm, ⟨37, _⟩ => ⟨S64x64, .i1⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S64x64, .i32⟩
  | .hbm, ⟨42, _⟩ => ⟨S64x64x1, .i32⟩
  | .hbm, ⟨43, _⟩ => ⟨S64x64, .i32⟩
  | .hbm, ⟨44, _⟩ => ⟨S2x64x128x16x64, .bf16⟩
  | .hbm, ⟨45, _⟩ => ⟨S64x2x16x128x64, .bf16⟩
  | .hbm, ⟨46, _⟩ => ⟨S64x32x128x64, .bf16⟩
  | .hbm, ⟨47, _⟩ => ⟨S2x8192x16x64, .bf16⟩
  | .hbm, ⟨48, _⟩ => ⟨S2x8192x16x64, .bf16⟩
  | .hbm, ⟨49, _⟩ => ⟨S_, .i32⟩
  | .hbm, ⟨50, _⟩ => ⟨S64x64, .i32⟩
  | .hbm, ⟨51, _⟩ => ⟨S64x64, .i1⟩
  | .hbm, ⟨52, _⟩ => ⟨S_, .i32⟩
  | .hbm, ⟨53, _⟩ => ⟨S64x64, .i32⟩
  | .hbm, ⟨54, _⟩ => ⟨S64x64, .i32⟩
  | .hbm, ⟨55, _⟩ => ⟨S64x64, .i32⟩
  | .hbm, ⟨56, _⟩ => ⟨S64x64x1, .i32⟩
  | .hbm, ⟨57, _⟩ => ⟨S2x64x64x16x64, .bf16⟩
  | .hbm, ⟨58, _⟩ => ⟨S_, .i32⟩
  | .hbm, ⟨59, _⟩ => ⟨S64x64, .i32⟩
  | .hbm, ⟨60, _⟩ => ⟨S64x64, .i1⟩
  | .hbm, ⟨61, _⟩ => ⟨S_, .i32⟩
  | .hbm, ⟨62, _⟩ => ⟨S64x64, .i32⟩
  | .hbm, ⟨63, _⟩ => ⟨S64x64, .i32⟩
  | .hbm, ⟨64, _⟩ => ⟨S64x64, .i32⟩
  | .hbm, ⟨65, _⟩ => ⟨S64x64x1, .i32⟩
  | .hbm, ⟨66, _⟩ => ⟨S2x64x64x16x64, .bf16⟩
  | .hbm, ⟨67, _⟩ => ⟨S64x2x16x64x64, .bf16⟩
  | .hbm, ⟨68, _⟩ => ⟨S64x32x64x64, .bf16⟩
  | .hbm, ⟨69, _⟩ => ⟨S64x2x16x64x64, .bf16⟩
  | .hbm, ⟨70, _⟩ => ⟨S64x32x64x64, .bf16⟩
  | .hbm, ⟨71, _⟩ => ⟨S64x32x128x64, .bf16⟩
  | .hbm, ⟨72, _⟩ => ⟨S64x2x16x128x64, .bf16⟩
  | .hbm, ⟨73, _⟩ => ⟨S2x64x128x16x64, .bf16⟩
  | .hbm, ⟨74, _⟩ => ⟨S16384x1024, .bf16⟩
  | .hbm, ⟨75, _⟩ => ⟨S16384x1024, .f32⟩
  | .hbm, ⟨76, _⟩ => ⟨S2x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x32x128x64, .bf16⟩
  | .local _ .vmem, ⟨12, _⟩ => ⟨S1x32x128x64, .bf16⟩
  | .local _ .vmem, ⟨13, _⟩ => ⟨S1x32x64x64, .bf16⟩
  | .local _ .vmem, ⟨14, _⟩ => ⟨S1x32x64x64, .bf16⟩
  | .local _ .vmem, ⟨15, _⟩ => ⟨S1x32x64x64, .bf16⟩
  | .local _ .vmem, ⟨16, _⟩ => ⟨S1x32x64x64, .bf16⟩
  | .local _ .vmem, ⟨17, _⟩ => ⟨S1x32x128x64, .bf16⟩
  | .local _ .vmem, ⟨18, _⟩ => ⟨S1x32x128x64, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | .local _ .vmem, ⟨23, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_3 : Ref sig .tc := ⟨.hbm, 49, rfl⟩
abbrev main_v38 : Ref sig .tc := ⟨.hbm, 50, rfl⟩
abbrev main_v39 : Ref sig .tc := ⟨.hbm, 51, rfl⟩
abbrev main_c_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_5 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x32x128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32x64x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x32x64x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x32x128x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S3072x1024_S1024x1024_0_0 : S3072x1024.Slices ![0, 0] S1024x1024
  bcast_S_S1024x1024 : S_.BroadcastsInDim S1024x1024 (![] : Fin 0 → Fin S1024x1024.rank)
  slices_S3072x1024_S1024x1024_1024_0 : S3072x1024.Slices ![1024, 0] S1024x1024
  slices_S3072x1024_S1024x1024_2048_0 : S3072x1024.Slices ![2048, 0] S1024x1024
  transposes_S1024x1024_S1024x1024_1_0 : S1024x1024.Transposes [1, 0] S1024x1024
  bitsLt_bf16_f32 : FTy.bits .bf16 < FTy.bits .f32
  shapeCasts_S2x8192x1024_S16384x1024 : S2x8192x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  bcast_S64_S64x1_0 : S64.BroadcastsInDim S64x1 (![0] : Fin 1 → Fin S64x1.rank)
  bcast_S_S64x1 : S_.BroadcastsInDim S64x1 (![] : Fin 0 → Fin S64x1.rank)
  bcast_S64_S1x64_1 : S64.BroadcastsInDim S1x64 (![1] : Fin 1 → Fin S1x64.rank)
  bcast_S_S1x64 : S_.BroadcastsInDim S1x64 (![] : Fin 0 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  shapeCasts_S16384x1024_S2x64x128x16x64 : S16384x1024.ShapeCasts S2x64x128x16x64
  transposes_S2x64x128x16x64_S64x2x16x128x64_1_0_3_2_4 : S2x64x128x16x64.Transposes [1, 0, 3, 2, 4] S64x2x16x128x64
  shapeCasts_S64x2x16x128x64_S64x32x128x64 : S64x2x16x128x64.ShapeCasts S64x32x128x64
  shapeCasts_S16384x1024_S2x8192x16x64 : S16384x1024.ShapeCasts S2x8192x16x64
  transposes_S2x64x64x16x64_S64x2x16x64x64_1_0_3_2_4 : S2x64x64x16x64.Transposes [1, 0, 3, 2, 4] S64x2x16x64x64
  shapeCasts_S64x2x16x64x64_S64x32x64x64 : S64x2x16x64x64.ShapeCasts S64x32x64x64
  inb_S1x32x128x64_S1x32x128x64_0_0_0_0 : ∀ a, (![0, 0, 0, 0] : Fin 4 → Nat) a + S1x32x128x64.size a ≤ S1x32x128x64.size a
  h_S1x32x128x64 : 0 < S1x32x128x64.numel
  shapeCasts_S1x32x128x64_S32x128x64 : S1x32x128x64.ShapeCasts S32x128x64
  inb_S1x32x64x64_S1x32x64x64_0_0_0_0 : ∀ a, (![0, 0, 0, 0] : Fin 4 → Nat) a + S1x32x64x64.size a ≤ S1x32x64x64.size a
  h_S1x32x64x64 : 0 < S1x32x64x64.numel
  shapeCasts_S1x32x64x64_S32x64x64 : S1x32x64x64.ShapeCasts S32x64x64
  reduces_S32x128x64_S32x128 : S32x128x64.Reduces [2] S32x128
  shapeCasts_S32x128_S32x128x1 : S32x128.ShapeCasts S32x128x1
  broadcasts_S32x128x1_S32x128x64 : S32x128x1.Broadcasts S32x128x64
  shapeCasts_S32x128x64_S1x32x128x64 : S32x128x64.ShapeCasts S1x32x128x64
  packedbf16_S1x32x128x64_S1x32x128x64_0_0_0_0 : (Rect.unit (s := S1x32x128x64) ![0, 0, 0, 0] S1x32x128x64.size inb_S1x32x128x64_S1x32x128x64_0_0_0_0).PackedRows (EltTy.packing .bf16)
  shapeCasts_S64x32x128x64_S64x2x16x128x64 : S64x32x128x64.ShapeCasts S64x2x16x128x64
  transposes_S64x2x16x128x64_S2x64x128x16x64_1_0_3_2_4 : S64x2x16x128x64.Transposes [1, 0, 3, 2, 4] S2x64x128x16x64
  shapeCasts_S2x64x128x16x64_S16384x1024 : S2x64x128x16x64.ShapeCasts S16384x1024
  shapeCasts_S16384x1024_S2x8192x1024 : S16384x1024.ShapeCasts S2x8192x1024
  dot_S1024x1024_S1024x1024_S1024x1024_1_0_0_1_n_n_wf : DotDims.WF S1024x1024 S1024x1024 S1024x1024 [1] [0] [0] [1] [] []
  gather_S8192_S64x64x1_S64x64_n_0_n_n_0_2_1_wf : GatherDims.WF S8192 S64x64x1 S64x64 [] [0] [] [0] [] 2 ![1]
  gather_S2x8192x16x64_S64x64x1_S2x64x64x16x64_034_1_n_n_1_2_211664_wf : GatherDims.WF S2x8192x16x64 S64x64x1 S2x64x64x16x64 [0, 3, 4] [1] [] [1] [] 2 ![2, 1, 16, 64]
  dot_S32x128x64_S32x64x64_S32x128x64_2_2_1_1_0_0_wf : DotDims.WF S32x128x64 S32x64x64 S32x128x64 [2] [2] [1] [1] [0] [0]
  dot_S32x128x64_S32x64x64_S32x128x64_2_1_1_2_0_0_wf : DotDims.WF S32x128x64 S32x64x64 S32x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S16384x1024.size a
  hwx0_6 : ∀ i : grid0.Coords, EltTy.bits .bf16 = 32 ∨ (Rect.block (s := S16384x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x128x64.size a ≤ S64x32x128x64.size a
  hwx1_0 : ∀ i : grid1.Coords, EltTy.bits .bf16 = 32 ∨ (Rect.block (s := S64x32x128x64) S1x32x128x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x64x64.size a ≤ S64x32x64x64.size a
  hwx1_1 : ∀ i : grid1.Coords, EltTy.bits .bf16 = 32 ∨ (Rect.block (s := S64x32x64x64) S1x32x64x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x64x64.size a ≤ S64x32x64x64.size a
  hwx1_2 : ∀ i : grid1.Coords, EltTy.bits .bf16 = 32 ∨ (Rect.block (s := S64x32x64x64) S1x32x64x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x128x64.size a ≤ S64x32x128x64.size a
  hwx1_3 : ∀ i : grid1.Coords, EltTy.bits .bf16 = 32 ∨ (Rect.block (s := S64x32x128x64) S1x32x128x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x1024.size a
  hwx2_0 : ∀ i : grid2.Coords, EltTy.bits .bf16 = 32 ∨ (Rect.block (s := S16384x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S16384x1024.size a
  hwx2_2 : ∀ i : grid2.Coords, EltTy.bits .f32 = 32 ∨ (Rect.block (s := S16384x1024) S1024x1024.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def gather_S8192_S64x64x1_S64x64_n_0_n_n_0_2_1 : GatherDims S8192 S64x64x1 S64x64 where
  offsetDims := []
  collapsedSliceDims := [0]
  operandBatchingDims := []
  startIndicesBatchingDims := []
  startIndexMap := [0]
  indexVectorDim := 2
  sliceSizes := ![1]
  wf := gather_S8192_S64x64x1_S64x64_n_0_n_n_0_2_1_wf
def gather_S2x8192x16x64_S64x64x1_S2x64x64x16x64_034_1_n_n_1_2_211664 : GatherDims S2x8192x16x64 S64x64x1 S2x64x64x16x64 where
  offsetDims := [0, 3, 4]
  collapsedSliceDims := [1]
  operandBatchingDims := []
  startIndicesBatchingDims := []
  startIndexMap := [1]
  indexVectorDim := 2
  sliceSizes := ![2, 1, 16, 64]
  wf := gather_S2x8192x16x64_S64x64x1_S2x64x64x16x64_034_1_n_n_1_2_211664_wf
def dot_S32x128x64_S32x64x64_S32x128x64_2_2_1_1_0_0 : DotDims S32x128x64 S32x64x64 S32x128x64 where
  lhsContracting := [2]
  rhsContracting := [2]
  lhsNonContracting := [1]
  rhsNonContracting := [1]
  lhsBatch := [0]
  rhsBatch := [0]
  wf := dot_S32x128x64_S32x64x64_S32x128x64_2_2_1_1_0_0_wf
def dot_S32x128x64_S32x64x64_S32x128x64_2_1_1_2_0_0 : DotDims S32x128x64 S32x64x64 S32x128x64 where
  lhsContracting := [2]
  rhsContracting := [1]
  lhsNonContracting := [1]
  rhsNonContracting := [2]
  lhsBatch := [0]
  rhsBatch := [0]
  wf := dot_S32x128x64_S32x64x64_S32x128x64_2_1_1_2_0_0_wf

abbrev win0_0 : Pipeline.Window sig grid0 :=
  Pipeline.Window.ofSpec (Memref.whole main_v13) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S1x32x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x32x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x32x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x32x128x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x8192x1024 : Shape := ⟨3, ![2, 8192, 1024]⟩
abbrev S3072x1024 : Shape := ⟨2, ![3072, 1024]⟩
abbrev S1024x1024 : Shape := ⟨2, ![1024, 1024]⟩
abbrev S8192 : Shape := ⟨1, ![8192]⟩
abbrev S2x8192x3072 : Shape := ⟨3, ![2, 8192, 3072]⟩
abbrev S2x8192x3x16x64 : Shape := ⟨5, ![2, 8192, 3, 16, 64]⟩
abbrev S3x2x16x8192x64 : Shape := ⟨5, ![3, 2, 16, 8192, 64]⟩
abbrev S1x2x16x8192x64 : Shape := ⟨5, ![1, 2, 16, 8192, 64]⟩
abbrev S2x16x8192x64 : Shape := ⟨4, ![2, 16, 8192, 64]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S2x16x64x128x64 : Shape := ⟨5, ![2, 16, 64, 128, 64]⟩
abbrev S2x16x64x64x64 : Shape := ⟨5, ![2, 16, 64, 64, 64]⟩
abbrev S2x16x64x128 : Shape := ⟨4, ![2, 16, 64, 128]⟩
abbrev S2x16x64x128x1 : Shape := ⟨5, ![2, 16, 64, 128, 1]⟩
abbrev S2x8192x16x64 : Shape := ⟨4, ![2, 8192, 16, 64]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S3072x1024, .f32⟩
  | .hbm, ⟨2, _⟩ => ⟨S1024x1024, .f32⟩
  | .hbm, ⟨3, _⟩ => ⟨S8192, .i32⟩
  | .hbm, ⟨4, _⟩ => ⟨S2x8192x3072, .f32⟩
  | .hbm, ⟨5, _⟩ => ⟨S2x8192x3x16x64, .f32⟩
  | .hbm, ⟨6, _⟩ => ⟨S3x2x16x8192x64, .f32⟩
  | .hbm, ⟨7, _⟩ => ⟨S1x2x16x8192x64, .f32⟩
  | .hbm, ⟨8, _⟩ => ⟨S2x16x8192x64, .f32⟩
  | .hbm, ⟨9, _⟩ => ⟨S_, .f32⟩
  | .hbm, ⟨10, _⟩ => ⟨S2x16x8192x64, .f32⟩
  | .hbm, ⟨11, _⟩ => ⟨S2x16x8192x64, .f32⟩
  | .hbm, ⟨12, _⟩ => ⟨S1x2x16x8192x64, .f32⟩
  | .hbm, ⟨13, _⟩ => ⟨S2x16x8192x64, .f32⟩
  | .hbm, ⟨14, _⟩ => ⟨S1x2x16x8192x64, .f32⟩
  | .hbm, ⟨15, _⟩ => ⟨S2x16x8192x64, .f32⟩
  | .hbm, ⟨16, _⟩ => ⟨S64, .i32⟩
  | .hbm, ⟨17, _⟩ => ⟨S64x1, .i32⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S64, .i32⟩
  | .hbm, ⟨22, _⟩ => ⟨S1x64, .i32⟩
  | .hbm, ⟨23, _⟩ => ⟨S_, .i32⟩
  | .hbm, ⟨24, _⟩ => ⟨S1x64, .i32⟩
  | .hbm, ⟨25, _⟩ => ⟨S1x64, .i32⟩
  | .hbm, ⟨26, _⟩ => ⟨S64x64, .i32⟩
  | .hbm, ⟨27, _⟩ => ⟨S64x64, .i32⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i1⟩
  | .hbm, ⟨32, _⟩ => ⟨S_, .i32⟩
  | .hbm, ⟨33, _⟩ => ⟨S64x64, .i32⟩
  | .hbm, ⟨34, _⟩ => ⟨S64x64, .i32⟩
  | .hbm, ⟨35, _⟩ => ⟨S64x64, .i32⟩
  | .hbm, ⟨36, _⟩ => ⟨S64x64x1, .i32⟩
  | .hbm, ⟨37, _⟩ => ⟨S64x64, .i32⟩
  | .hbm, ⟨38, _⟩ => ⟨S2x16x64x128x64, .f32⟩
  | .hbm, ⟨39, _⟩ => ⟨S_, .i32⟩
  | .hbm, ⟨40, _⟩ => ⟨S64x64, .i32⟩
  | .hbm, ⟨41, _⟩ => ⟨S64x64, .i1⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S64x64, .i32⟩
  | .hbm, ⟨46, _⟩ => ⟨S64x64x1, .i32⟩
  | .hbm, ⟨47, _⟩ => ⟨S2x16x64x64x64, .f32⟩
  | .hbm, ⟨48, _⟩ => ⟨S_, .i32⟩
  | .hbm, ⟨49, _⟩ => ⟨S64x64, .i32⟩
  | .hbm, ⟨50, _⟩ => ⟨S64x64, .i1⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S64x64, .i32⟩
  | .hbm, ⟨55, _⟩ => ⟨S64x64x1, .i32⟩
  | .hbm, ⟨56, _⟩ => ⟨S2x16x64x64x64, .f32⟩
  | .hbm, ⟨57, _⟩ => ⟨S2x16x64x128x64, .f32⟩
  | .hbm, ⟨58, _⟩ => ⟨S2x16x64x128x64, .f32⟩
  | .hbm, ⟨59, _⟩ => ⟨S2x16x64x128x64, .f32⟩
  | .hbm, ⟨60, _⟩ => ⟨S_, .f32⟩
  | .hbm, ⟨61, _⟩ => ⟨S2x16x64x128, .f32⟩
  | .hbm, ⟨62, _⟩ => ⟨S2x16x64x128x1, .f32⟩
  | .hbm, ⟨63, _⟩ => ⟨S_, .f32⟩
  | .hbm, ⟨64, _⟩ => ⟨S2x16x64x128x1, .f32⟩
  | .hbm, ⟨65, _⟩ => ⟨S2x16x64x128x1, .f32⟩
  | .hbm, ⟨66, _⟩ => ⟨S2x16x64x128x64, .f32⟩
  | .hbm, ⟨67, _⟩ => ⟨S2x16x64x128x64, .f32⟩
  | .hbm, ⟨68, _⟩ => ⟨S2x16x8192x64, .f32⟩
  | .hbm, ⟨69, _⟩ => ⟨S2x8192x16x64, .f32⟩
  | .hbm, ⟨70, _⟩ => ⟨S2x8192x1024, .f32⟩
  | .hbm, ⟨71, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]

class Facts₀ : Prop where
  shapeCasts_S2x8192x3072_S2x8192x3x16x64 : S2x8192x3072.ShapeCasts S2x8192x3x16x64
  transposes_S2x8192x3x16x64_S3x2x16x8192x64_2_0_3_1_4 : S2x8192x3x16x64.Transposes [2, 0, 3, 1, 4] S3x2x16x8192x64
  slices_S3x2x16x8192x64_S1x2x16x8192x64_0_0_0_0_0 : S3x2x16x8192x64.Slices ![0, 0, 0, 0, 0] S1x2x16x8192x64
  shapeCasts_S1x2x16x8192x64_S2x16x8192x64 : S1x2x16x8192x64.ShapeCasts S2x16x8192x64
  bcast_S_S2x16x8192x64 : S_.BroadcastsInDim S2x16x8192x64 (![] : Fin 0 → Fin S2x16x8192x64.rank)
  slices_S3x2x16x8192x64_S1x2x16x8192x64_1_0_0_0_0 : S3x2x16x8192x64.Slices ![1, 0, 0, 0, 0] S1x2x16x8192x64
  slices_S3x2x16x8192x64_S1x2x16x8192x64_2_0_0_0_0 : S3x2x16x8192x64.Slices ![2, 0, 0, 0, 0] S1x2x16x8192x64
  bcast_S64_S64x1_0 : S64.BroadcastsInDim S64x1 (![0] : Fin 1 → Fin S64x1.rank)
  bcast_S_S64x1 : S_.BroadcastsInDim S64x1 (![] : Fin 0 → Fin S64x1.rank)
  bcast_S64_S1x64_1 : S64.BroadcastsInDim S1x64 (![1] : Fin 1 → Fin S1x64.rank)
  bcast_S_S1x64 : S_.BroadcastsInDim S1x64 (![] : Fin 0 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  shapeCasts_S2x16x8192x64_S2x16x64x128x64 : S2x16x8192x64.ShapeCasts S2x16x64x128x64
  reducesTo_S2x16x64x128x64_S2x16x64x128_d4 : S2x16x64x128x64.ReducesTo [4] S2x16x64x128
  h_S_ : 0 < S_.numel
  bcast_S2x16x64x128_S2x16x64x128x1_0_1_2_3 : S2x16x64x128.BroadcastsInDim S2x16x64x128x1 (![0, 1, 2, 3] : Fin 4 → Fin S2x16x64x128x1.rank)
  bcast_S_S2x16x64x128x1 : S_.BroadcastsInDim S2x16x64x128x1 (![] : Fin 0 → Fin S2x16x64x128x1.rank)
  bcast_S2x16x64x128x1_S2x16x64x128x64_0_1_2_3_4 : S2x16x64x128x1.BroadcastsInDim S2x16x64x128x64 (![0, 1, 2, 3, 4] : Fin 5 → Fin S2x16x64x128x64.rank)
  shapeCasts_S2x16x64x128x64_S2x16x8192x64 : S2x16x64x128x64.ShapeCasts S2x16x8192x64
  transposes_S2x16x8192x64_S2x8192x16x64_0_2_1_3 : S2x16x8192x64.Transposes [0, 2, 1, 3] S2x8192x16x64
  shapeCasts_S2x8192x16x64_S2x8192x1024 : S2x8192x16x64.ShapeCasts S2x8192x1024
  dot_S2x8192x1024_S3072x1024_S2x8192x3072_2_1_01_0_n_n_wf : DotDims.WF S2x8192x1024 S3072x1024 S2x8192x3072 [2] [1] [0, 1] [0] [] []
  gather_S8192_S64x64x1_S64x64_n_0_n_n_0_2_1_wf : GatherDims.WF S8192 S64x64x1 S64x64 [] [0] [] [0] [] 2 ![1]
  gather_S2x16x8192x64_S64x64x1_S2x16x64x64x64_014_2_n_n_2_2_216164_wf : GatherDims.WF S2x16x8192x64 S64x64x1 S2x16x64x64x64 [0, 1, 4] [2] [] [2] [] 2 ![2, 16, 1, 64]
  dot_S2x16x64x128x64_S2x16x64x64x64_S2x16x64x128x64_4_4_3_3_012_012_wf : DotDims.WF S2x16x64x128x64 S2x16x64x64x64 S2x16x64x128x64 [4] [4] [3] [3] [0, 1, 2] [0, 1, 2]
  dot_S2x16x64x128x64_S2x16x64x64x64_S2x16x64x128x64_4_3_3_4_012_012_wf : DotDims.WF S2x16x64x128x64 S2x16x64x64x64 S2x16x64x128x64 [4] [3] [3] [4] [0, 1, 2] [0, 1, 2]
  dot_S2x8192x1024_S1024x1024_S2x8192x1024_2_1_01_0_n_n_wf : DotDims.WF S2x8192x1024 S1024x1024 S2x8192x1024 [2] [1] [0, 1] [0] [] []

variable [Facts₀]

def dot_S2x8192x1024_S3072x1024_S2x8192x3072_2_1_01_0_n_n : DotDims S2x8192x1024 S3072x1024 S2x8192x3072 where
  lhsContracting := [2]
  rhsContracting := [1]
  lhsNonContracting := [0, 1]
  rhsNonContracting := [0]
  lhsBatch := []
  rhsBatch := []
  wf := dot_S2x8192x1024_S3072x1024_S2x8192x3072_2_1_01_0_n_n_wf
def gather_S8192_S64x64x1_S64x64_n_0_n_n_0_2_1 : GatherDims S8192 S64x64x1 S64x64 where
  offsetDims := []
  collapsedSliceDims := [0]
  operandBatchingDims := []
  startIndicesBatchingDims := []
  startIndexMap := [0]
  indexVectorDim := 2
  sliceSizes := ![1]
  wf := gather_S8192_S64x64x1_S64x64_n_0_n_n_0_2_1_wf
def gather_S2x16x8192x64_S64x64x1_S2x16x64x64x64_014_2_n_n_2_2_216164 : GatherDims S2x16x8192x64 S64x64x1 S2x16x64x64x64 where
  offsetDims := [0, 1, 4]
  collapsedSliceDims := [2]
  operandBatchingDims := []
  startIndicesBatchingDims := []
  startIndexMap := [2]
  indexVectorDim := 2
  sliceSizes := ![2, 16, 1, 64]
  wf := gather_S2x16x8192x64_S64x64x1_S2x16x64x64x64_014_2_n_n_2_2_216164_wf
def dot_S2x16x64x128x64_S2x16x64x64x64_S2x16x64x128x64_4_4_3_3_012_012 : DotDims S2x16x64x128x64 S2x16x64x64x64 S2x16x64x128x64 where
  lhsContracting := [4]
  rhsContracting := [4]
  lhsNonContracting := [3]
  rhsNonContracting := [3]
  lhsBatch := [0, 1, 2]
  rhsBatch := [0, 1, 2]
  wf := dot_S2x16x64x128x64_S2x16x64x64x64_S2x16x64x128x64_4_4_3_3_012_012_wf
def dot_S2x16x64x128x64_S2x16x64x64x64_S2x16x64x128x64_4_3_3_4_012_012 : DotDims S2x16x64x128x64 S2x16x64x64x64 S2x16x64x128x64 where
  lhsContracting := [4]
  rhsContracting := [3]
  lhsNonContracting := [3]
  rhsNonContracting := [4]
  lhsBatch := [0, 1, 2]
  rhsBatch := [0, 1, 2]
  wf := dot_S2x16x64x128x64_S2x16x64x64x64_S2x16x64x128x64_4_3_3_4_012_012_wf
def dot_S2x8192x1024_S1024x1024_S2x8192x1024_2_1_01_0_n_n : DotDims S2x8192x1024 S1024x1024 S2x8192x1024 where
  lhsContracting := [2]
  rhsContracting := [1]
  lhsNonContracting := [0, 1]
  rhsNonContracting := [0]
  lhsBatch := []
  rhsBatch := []
  wf := dot_S2x8192x1024_S1024x1024_S2x8192x1024_2_1_01_0_n_n_wf

class Facts : Prop extends Facts₀ where

variable [Facts]
-- ==== Proof.KernelRun.lean ====
/-
  The kernel program's run with its result named: every weakly fair execution terminates without a fault, leaves the
  four argument arrays as launched, and leaves in the result buffer what the chain of buffer contents through the
  program's seven segments (layout stretch, array computation, layout stretch, …) assigns to it at the end.
-/
import proofs.«144823_j58926951301482_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments chained from the launch memory, the last boundary's contents read against the final state
    at the result buffer and at the four arguments. -/
theorem run_result : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Run

end
-- ==== Proof.Spec.lean ====
/-
  The mathematics of the attention block, as functions of arrays over the extended reals.

  * `matProd A B` is the plain product of a [16384, 1024] array with a [1024, 1024] array:
    entry (r, e) is the sum over k of A(r, k) · B(k, e).
  * `attn Q K V` is one dilated-attention step on arrays laid out [segment, batch·head, row, channel]:
    the score of query row s against key j is the sum over the channel of Q·K, the weight is its
    exponential divided by (the sum of the exponentials over the 64 keys plus ε), and the output is the
    weighted sum of the value rows.
-/
import proofs.«144823_j58926951301482_2_alg».proof.KernelIdeal
import Idealize.ShloMosaic.PureOps.Ideal
import Idealize.ShloMosaic.Lib.ValueIdx

noncomputable section

open scoped BigOperators

namespace Cert.KernelIdeal.Spec

open Cert.KernelIdeal Idealize.ShloMosaic Idealize.ShloMosaic.ValueIdx

/-- The product of a [16384, 1024] array and a [1024, 1024] array, entry by entry. -/
def matProd (A : S16384x1024.Idx → EReal) (B : S1024x1024.Idx → EReal) : S16384x1024.Idx → EReal :=
  fun i => ∑ k : Fin 1024, A (ix2 (i 0 : Fin 16384) k) * B (ix2 k (i 1 : Fin 1024))

/-- The softmax denominator's small constant, as the extended real its f32 word denotes. -/
def eps : EReal := Ideal.ofBits .f32 0x358637BD#32

/-- The score of query row `s` against key `j` in segment `n`, head slot `bh`. -/
def score (Q : S64x32x128x64.Idx → EReal) (K : S64x32x64x64.Idx → EReal)
    (n : Fin 64) (bh : Fin 32) (s : Fin 128) (j : Fin 64) : EReal :=
  ∑ d : Fin 64, Q (ix4 n bh s d) * K (ix4 n bh j d)

/-- The normalised weight of key `j`. -/
def weight (Q : S64x32x128x64.Idx → EReal) (K : S64x32x64x64.Idx → EReal)
    (n : Fin 64) (bh : Fin 32) (s : Fin 128) (j : Fin 64) : EReal :=
  Ideal.div (Ideal.exp (score Q K n bh s j)) ((∑ j' : Fin 64, Ideal.exp (score Q K n bh s j')) + eps)

/-- One attention step: the weighted sum of the value rows. -/
def attn (Q : S64x32x128x64.Idx → EReal) (K V : S64x32x64x64.Idx → EReal) : S64x32x128x64.Idx → EReal :=
  fun i => ∑ j : Fin 64, weight Q K (i 0 : Fin 64) (i 1 : Fin 32) (i 2 : Fin 128) j * V (ix4 (i 0 : Fin 64) (i 1 : Fin 32) j (i 3 : Fin 64))

end Cert.KernelIdeal.Spec

end
-- ==== Proof.KernelTerm.lean ====
/-
  The kernel program's result as one term of its four arguments, at the extended reals.

  Between its three array computations the program only re-lays data out; each such stretch is written here as the
  composition of the layout operations it performs:
  * `rows X`: the input [2, 8192, 1024] read as 16384 rows;
  * `wqT W`, `wkT W`, `wvT W`: the three 1024-row slices of the projection weight, transposed (the query slice
    first scaled by 1/8); `woT Wo`: the output weight transposed;
  * `keyStart hm`: for segment n and key slot j the table entry hm[128 n + 2 j] (negative indices wrapped by 8192
    before each lookup), as the start-index array the two gathers read;
  * `qT`: rows [b·8192 + 128 n + s, 64 h + d] re-laid as [n, 16 b + h, s, d];
  * `kT`: the key (or value) rows picked by `keyStart`, re-laid as [n, 16 b + h, j, d];
  * `aoT`: the attention output [n, 16 b + h, s, d] back to rows [b·8192 + 128 n + s, 64 h + d];
  * `out3`: 16384 rows read as [2, 8192, 1024].
  `kernelValue` composes them with the three array computations of `Spec`.
-/
import proofs.«144823_j58926951301482_2_alg».proof.Proof.Spec
import proofs.«144823_j58926951301482_2_alg».proof.Proof.Gen.KernelIdeal

noncomputable section

namespace Cert.KernelIdeal.Term

open Cert.KernelIdeal Cert.KernelIdeal.Facts₀ Cert.KernelIdeal.Spec Idealize.ShloMosaic Idealize.ShloMosaic.TcCoe

/-- The input as 16384 rows of 1024. -/
def rows (X : (⟨S2x8192x1024, .f32⟩ : BufTy).Contents (Elt Ideal)) : (⟨S16384x1024, .f32⟩ : BufTy).Contents (Elt Ideal) :=
  shapeCast _ X shapeCasts_S2x8192x1024_S16384x1024

/-- The query weight: rows 0 … 1023 of the projection weight, scaled by 1/8, transposed. -/
def wqT (W : (⟨S3072x1024, .f32⟩ : BufTy).Contents (Elt Ideal)) : (⟨S1024x1024, .bf16⟩ : BufTy).Contents (Elt Ideal) :=
  truncf (F := Ideal) .bf16 (transpose S1024x1024 [1, 0]
    (mulf (F := Ideal) (extractStridedSlice S1024x1024 ![0, 0] W slices_S3072x1024_S1024x1024_0_0)
      (broadcastInDim S1024x1024 ![] bcast_S_S1024x1024 (constant (F := Ideal) S_ .f32 0x3E000000#32)))
    transposes_S1024x1024_S1024x1024_1_0) bitsLt_bf16_f32

/-- The key weight: rows 1024 … 2047, transposed. -/
def wkT (W : (⟨S3072x1024, .f32⟩ : BufTy).Contents (Elt Ideal)) : (⟨S1024x1024, .bf16⟩ : BufTy).Contents (Elt Ideal) :=
  truncf (F := Ideal) .bf16 (transpose S1024x1024 [1, 0] (extractStridedSlice S1024x1024 ![1024, 0] W slices_S3072x1024_S1024x1024_1024_0)
    transposes_S1024x1024_S1024x1024_1_0) bitsLt_bf16_f32

/-- The value weight: rows 2048 … 3071, transposed. -/
def wvT (W : (⟨S3072x1024, .f32⟩ : BufTy).Contents (Elt Ideal)) : (⟨S1024x1024, .bf16⟩ : BufTy).Contents (Elt Ideal) :=
  truncf (F := Ideal) .bf16 (transpose S1024x1024 [1, 0] (extractStridedSlice S1024x1024 ![2048, 0] W slices_S3072x1024_S1024x1024_2048_0)
    transposes_S1024x1024_S1024x1024_1_0) bitsLt_bf16_f32

/-- The output weight, transposed. -/
def woT (Wo : (⟨S1024x1024, .f32⟩ : BufTy).Contents (Elt Ideal)) : (⟨S1024x1024, .bf16⟩ : BufTy).Contents (Elt Ideal) :=
  truncf (F := Ideal) .bf16 (transpose S1024x1024 [1, 0] Wo transposes_S1024x1024_S1024x1024_1_0) bitsLt_bf16_f32

/-- The logical key position 128 n + 2 j of key slot j in segment n. -/
def keyLogical : (⟨S64x64, .i32⟩ : BufTy).Contents (Elt Ideal) :=
  addi
    (broadcastInDim S64x64 ![0, 1] bcast_S64x1_S64x64_0_1
      (muli (broadcastInDim S64x1 ![0] bcast_S64_S64x1_0 (iotaInDim S64 32 0))
        (broadcastInDim S64x1 ![] bcast_S_S64x1 (constantI S_ 32 128#32))))
    (broadcastInDim S64x64 ![0, 1] bcast_S1x64_S64x64_0_1
      (muli (broadcastInDim S1x64 ![1] bcast_S64_S1x64_1 (iotaInDim S64 32 0))
        (broadcastInDim S1x64 ![] bcast_S_S1x64 (constantI S_ 32 2#32))))

/-- A table of positions made ready for a lookup: a negative entry is moved up by 8192, and the table gets the
    trailing unit axis a gather's start indices carry. -/
def wrap (v : (⟨S64x64, .i32⟩ : BufTy).Contents (Elt Ideal)) : (⟨S64x64x1, .i32⟩ : BufTy).Contents (Elt Ideal) :=
  broadcastInDim S64x64x1 ![0, 1] bcast_S64x64_S64x64x1_0_1
    (select (cmpi .slt v (broadcastInDim S64x64 ![] bcast_S_S64x64 (constantI S_ 32 0#32)))
      (addi v (broadcastInDim S64x64 ![] bcast_S_S64x64 (constantI S_ 32 8192#32))) v)

/-- The physical key position: the map's entry at the logical position. -/
def keyPhys (hm : (⟨S8192, .i32⟩ : BufTy).Contents (Elt Ideal)) : (⟨S64x64, .i32⟩ : BufTy).Contents (Elt Ideal) :=
  Host.gather gather_S8192_S64x64x1_S64x64_n_0_n_n_0_2_1 hm (wrap keyLogical)

/-- The start indices the key and value gathers read. -/
def keyStart (hm : (⟨S8192, .i32⟩ : BufTy).Contents (Elt Ideal)) : (⟨S64x64x1, .i32⟩ : BufTy).Contents (Elt Ideal) :=
  wrap (keyPhys hm)

/-- Query rows re-laid as [segment, batch·head, row, channel]. -/
def qT (Qa : (⟨S16384x1024, .bf16⟩ : BufTy).Contents (Elt Ideal)) : (⟨S64x32x128x64, .bf16⟩ : BufTy).Contents (Elt Ideal) :=
  shapeCast _ (transpose S64x2x16x128x64 [1, 0, 3, 2, 4] (shapeCast _ Qa shapeCasts_S16384x1024_S2x64x128x16x64)
    transposes_S2x64x128x16x64_S64x2x16x128x64_1_0_3_2_4) shapeCasts_S64x2x16x128x64_S64x32x128x64

/-- The key (or value) rows at the gathered positions, re-laid as [segment, batch·head, key slot, channel]. -/
def kT (Ka : (⟨S16384x1024, .bf16⟩ : BufTy).Contents (Elt Ideal)) (hm : (⟨S8192, .i32⟩ : BufTy).Contents (Elt Ideal)) :
    (⟨S64x32x64x64, .bf16⟩ : BufTy).Contents (Elt Ideal) :=
  shapeCast _ (transpose S64x2x16x64x64 [1, 0, 3, 2, 4]
    (Host.gather gather_S2x8192x16x64_S64x64x1_S2x64x64x16x64_034_1_n_n_1_2_211664
      (shapeCast _ Ka shapeCasts_S16384x1024_S2x8192x16x64) (keyStart hm))
    transposes_S2x64x64x16x64_S64x2x16x64x64_1_0_3_2_4) shapeCasts_S64x2x16x64x64_S64x32x64x64

/-- The attention output back to rows. -/
def aoT (O : (⟨S64x32x128x64, .bf16⟩ : BufTy).Contents (Elt Ideal)) : (⟨S16384x1024, .bf16⟩ : BufTy).Contents (Elt Ideal) :=
  shapeCast _ (transpose S2x64x128x16x64 [1, 0, 3, 2, 4] (shapeCast _ O shapeCasts_S64x32x128x64_S64x2x16x128x64)
    transposes_S64x2x16x128x64_S2x64x128x16x64_1_0_3_2_4) shapeCasts_S2x64x128x16x64_S16384x1024

/-- 16384 rows read as [2, 8192, 1024]. -/
def out3 (Y : (⟨S16384x1024, .f32⟩ : BufTy).Contents (Elt Ideal)) : (⟨S2x8192x1024, .f32⟩ : BufTy).Contents (Elt Ideal) :=
  shapeCast _ Y shapeCasts_S16384x1024_S2x8192x1024

/-- The three projections of the input rows. -/
def qRows (X : (⟨S2x8192x1024, .f32⟩ : BufTy).Contents (Elt Ideal)) (W : (⟨S3072x1024, .f32⟩ : BufTy).Contents (Elt Ideal)) :
    (⟨S16384x1024, .bf16⟩ : BufTy).Contents (Elt Ideal) := matProd (rows X) (wqT W)
def kRows (X : (⟨S2x8192x1024, .f32⟩ : BufTy).Contents (Elt Ideal)) (W : (⟨S3072x1024, .f32⟩ : BufTy).Contents (Elt Ideal)) :
    (⟨S16384x1024, .bf16⟩ : BufTy).Contents (Elt Ideal) := matProd (rows X) (wkT W)
def vRows (X : (⟨S2x8192x1024, .f32⟩ : BufTy).Contents (Elt Ideal)) (W : (⟨S3072x1024, .f32⟩ : BufTy).Contents (Elt Ideal)) :
    (⟨S16384x1024, .bf16⟩ : BufTy).Contents (Elt Ideal) := matProd (rows X) (wvT W)

/-- The attention output of the whole input, [segment, batch·head, row, channel]. -/
def attnOut (X : (⟨S2x8192x1024, .f32⟩ : BufTy).Contents (Elt Ideal)) (W : (⟨S3072x1024, .f32⟩ : BufTy).Contents (Elt Ideal))
    (hm : (⟨S8192, .i32⟩ : BufTy).Contents (Elt Ideal)) : (⟨S64x32x128x64, .bf16⟩ : BufTy).Contents (Elt Ideal) :=
  attn (qT (qRows X W)) (kT (kRows X W) hm) (kT (vRows X W) hm)

/-- The kernel program's result. -/
def kernelValue (X : (⟨S2x8192x1024, .f32⟩ : BufTy).Contents (Elt Ideal)) (W : (⟨S3072x1024, .f32⟩ : BufTy).Contents (Elt Ideal))
    (Wo : (⟨S1024x1024, .f32⟩ : BufTy).Contents (Elt Ideal)) (hm : (⟨S8192, .i32⟩ : BufTy).Contents (Elt Ideal)) :
    (⟨S2x8192x1024, .f32⟩ : BufTy).Contents (Elt Ideal) :=
  out3 (matProd (aoT (attnOut X W hm)) (woT Wo))

end Cert.KernelIdeal.Term

end
-- ==== Proof.KernelFold.lean ====
/-
  The contents of the buffers the three array computations read and write, followed through the program's layout
  stretches: each stretch only re-lays data out, so a buffer's contents after it are a layout term (`Term`) of the
  contents before it, and a buffer no operation of a stretch writes keeps its contents.
-/
import proofs.«144823_j58926951301482_2_alg».proof.Proof.Gen.KernelIdeal.Frame
import proofs.«144823_j58926951301482_2_alg».proof.Proof.KernelTerm
import Idealize.ShloMosaic.Lib.StableHlo.Run

set_option maxRecDepth 16384

noncomputable section

namespace Cert.KernelIdeal.Fold

open Cert.KernelIdeal Cert.KernelIdeal.Gen Cert.KernelIdeal.Facts₀
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The first stretch: from the launch memory to the first computation's operands -/

theorem W1_v13 : W1 m ρ c (Proc.devRef .tc main_v13) = Term.rows (m ((c : Thread nD τ).loc main_arg0)) := by
  show StableHlo.after hostOps0 (W0 m ρ c) (Proc.devRef .tc main_v13) = _
  after_results_simp
  rfl

theorem W1_v6 : W1 m ρ c (Proc.devRef .tc main_v6) = Term.wqT (m ((c : Thread nD τ).loc main_arg1)) := by
  show StableHlo.after hostOps0 (W0 m ρ c) (Proc.devRef .tc main_v6) = _
  after_results_simp
  rfl

theorem W1_v8 : W1 m ρ c (Proc.devRef .tc main_v8) = Term.wkT (m ((c : Thread nD τ).loc main_arg1)) := by
  show StableHlo.after hostOps0 (W0 m ρ c) (Proc.devRef .tc main_v8) = _
  after_results_simp
  rfl

theorem W1_v10 : W1 m ρ c (Proc.devRef .tc main_v10) = Term.wvT (m ((c : Thread nD τ).loc main_arg1)) := by
  show StableHlo.after hostOps0 (W0 m ρ c) (Proc.devRef .tc main_v10) = _
  after_results_simp
  rfl

theorem W1_v12 : W1 m ρ c (Proc.devRef .tc main_v12) = Term.woT (m ((c : Thread nD τ).loc main_arg2)) := by
  show StableHlo.after hostOps0 (W0 m ρ c) (Proc.devRef .tc main_v12) = _
  after_results_simp
  rfl

theorem W1_arg3 : W1 m ρ c (Proc.devRef .tc main_arg3) = m ((c : Thread nD τ).loc main_arg3) := by
  show StableHlo.after hostOps0 (W0 m ρ c) (Proc.devRef .tc main_arg3) = _
  after_results_simp

/-! ## The first computation leaves the weight and the map untouched -/

theorem W2_v12 : W2 m ρ c (Proc.devRef .tc main_v12) = Term.woT (m ((c : Thread nD τ).loc main_arg2)) :=
  (W2_of_ne m ρ c main_v12 (by decide)).trans (W1_v12 m ρ c)

theorem W2_arg3 : W2 m ρ c (Proc.devRef .tc main_arg3) = m ((c : Thread nD τ).loc main_arg3) :=
  (W2_of_ne m ρ c main_arg3 (by decide)).trans (W1_arg3 m ρ c)

/-! ## The second stretch: the projections re-laid for the attention step -/

theorem W3_v35 : W3 m ρ c (Proc.devRef .tc main_v35) = Term.qT (W2 m ρ c (Proc.devRef .tc main_v14_0)) := by
  show StableHlo.after hostOps1 (W2 m ρ c) (Proc.devRef .tc main_v35) = _
  after_results_simp
  rfl

theorem W3_v53 : W3 m ρ c (Proc.devRef .tc main_v53)
    = Term.kT (W2 m ρ c (Proc.devRef .tc main_v14_1)) (W2 m ρ c (Proc.devRef .tc main_arg3)) := by
  show StableHlo.after hostOps1 (W2 m ρ c) (Proc.devRef .tc main_v53) = _
  after_results_simp
  rfl

theorem W3_v55 : W3 m ρ c (Proc.devRef .tc main_v55)
    = Term.kT (W2 m ρ c (Proc.devRef .tc main_v14_2)) (W2 m ρ c (Proc.devRef .tc main_arg3)) := by
  show StableHlo.after hostOps1 (W2 m ρ c) (Proc.devRef .tc main_v55) = _
  after_results_simp
  rfl

theorem W3_v12 : W3 m ρ c (Proc.devRef .tc main_v12) = Term.woT (m ((c : Thread nD τ).loc main_arg2)) := by
  show StableHlo.after hostOps1 (W2 m ρ c) (Proc.devRef .tc main_v12) = _
  after_results_simp
  exact W2_v12 m ρ c

/-! ## The attention step leaves the output weight untouched; the third stretch re-lays its output as rows -/

theorem W4_v12 : W4 m ρ c (Proc.devRef .tc main_v12) = Term.woT (m ((c : Thread nD τ).loc main_arg2)) :=
  (W4_of_ne m ρ c main_v12 (by decide)).trans (W3_v12 m ρ c)

theorem W5_v59 : W5 m ρ c (Proc.devRef .tc main_v59) = Term.aoT (W4 m ρ c (Proc.devRef .tc main_v56)) := by
  show StableHlo.after hostOps2 (W4 m ρ c) (Proc.devRef .tc main_v59) = _
  after_results_simp
  rfl

theorem W5_v12 : W5 m ρ c (Proc.devRef .tc main_v12) = Term.woT (m ((c : Thread nD τ).loc main_arg2)) := by
  show StableHlo.after hostOps2 (W4 m ρ c) (Proc.devRef .tc main_v12) = _
  after_results_simp
  exact W4_v12 m ρ c

/-! ## The last stretch: the rows read as the result's three axes -/

theorem W7_v61 : W7 m ρ c (Proc.devRef .tc main_v61) = Term.out3 (W6 m ρ c (Proc.devRef .tc main_v60)) := by
  show StableHlo.after hostOps3 (W6 m ρ c) (Proc.devRef .tc main_v61) = _
  after_results_simp
  rfl

end Cert.KernelIdeal.Fold

end
-- ==== Proof.RegionDot.lean ====
/-
  The plain product of two [1024, 1024] blocks, entry by entry, and how such a block product sits inside the product
  of a [16384, 1024] array with a [1024, 1024] array.

  * `dotPlain_apply`: the matrix unit's product of blocks l and r into the zero accumulator has, at (p, q), the sum over
    k of l(p, k) · r(k, q): the contraction index has one axis of extent 1024, and the two operand indices at (p, q) and
    k are (p, k) and (k, q).
  * `rowsPoint`: if a block P is the product of blocks x0 and x1, x0 is rows 1024 n … 1024 n + 1023 of an array A and
    x1 is the array B, then P(p, q) is entry (1024 n + p, q) of `Spec.matProd A B`: both are the same sum over k.
  * the payloads of the two matmul bodies are such block products (a change of float format is the identity on
    extended reals, and a shape cast to the same shape is the identity).
-/
import proofs.«144823_j58926951301482_2_alg».proof.Proof.Spec
import proofs.«144823_j58926951301482_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Facts₀ Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl

/-! ## The plain [1024, 1024] × [1024, 1024] product read at an entry -/

theorem lhsPlain_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhsPlain_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhsPlain_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhsPlain_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A [1024, 1024] by [1024, 1024] product into the zero accumulator: entry (p, q) is the sum over k of
    l(p, k) · r(k, q). -/
theorem dotPlain_apply (l r : FVec Ideal S1024x1024 .bf16) (p q : Fin 1024) :
    matmul dot_S1024x1024_S1024x1024_S1024x1024_1_0_0_1_n_n none l r (constant (F := Ideal) S1024x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhsPlain_0 _ _
    | ⟨1, _⟩ => exact (lhsPlain_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhsPlain_0 _ _).trans hk
    | ⟨1, _⟩ => exact rhsPlain_1 _ _)
  rw [el, er]

/-- One point of a row-blocked product: if P is the product of the blocks x0 and x1, x0 is rows 1024 n … 1024 n + 1023
    of A, and x1 is B, then P at (p, q) is entry (1024 n + p, q) of the product of A and B. -/
theorem rowsPoint (P x0 x1 : S1024x1024.Idx → EReal)
    (hP : ∀ p q : Fin 1024, P (ix2 p q) = ∑ k : Fin 1024, x0 (ix2 p k) * x1 (ix2 k q))
    (A : S16384x1024.Idx → EReal) (B : S1024x1024.Idx → EReal) (n : Nat) (hn : n < 16)
    (h0 : ∀ (p k : Fin 1024), x0 (ix2 p k) = A (ix2 (⟨n * 1024 + p.val, by omega⟩ : Fin 16384) k))
    (h1 : ∀ y : S1024x1024.Idx, x1 y = B y)
    (j : S1024x1024.Idx) (i : S16384x1024.Idx) (hi0 : (i 0).val = n * 1024 + (j 0).val) (hi1 : (i 1).val = (j 1).val) :
    P j = Spec.matProd A B i := by
  obtain ⟨p, q, rfl⟩ : ∃ (p q : Fin 1024), j = ix2 p q := ⟨j 0, j 1, eq_ix2 j⟩
  have hp : n * 1024 + p.val < 16384 := by have := p.isLt; omega
  obtain ⟨r, q', rfl⟩ : ∃ (r : Fin 16384) (q' : Fin 1024), i = ix2 r q' := ⟨i 0, i 1, eq_ix2 i⟩
  obtain rfl : r = ⟨n * 1024 + p.val, hp⟩ := Fin.ext hi0
  obtain rfl : q = q' := (Fin.ext hi1).symm
  rw [hP]
  show _ = ∑ k : Fin 1024, A (ix2 (⟨n * 1024 + p.val, _⟩ : Fin 16384) k) * B (ix2 k q)
  exact Finset.sum_congr rfl fun k _ => by rw [h0, h1]

/-! ## The two matmul bodies' payloads at an entry -/

/-- The output projection's payload: the product of its two loaded blocks. -/
theorem pay2_apply (x0 x1 : Vec Ideal S1024x1024 .bf16) (p q : Fin 1024) :
    Gen.k2_pay1 (F := Ideal) x0 x1 (ix2 p q) = ∑ k : Fin 1024, x0 (ix2 p k) * x1 (ix2 k q) := by
  unfold Gen.k2_pay1
  simp only [shapeCast_self]
  exact dotPlain_apply x0 x1 p q

/-- The query projection's payload: the product of the row block and the weight block (the two changes of format on the
    way are the identity on extended reals). -/
theorem pay0q_apply (x0 : Vec Ideal S1024x1024 .f32) (x1 : Vec Ideal S1024x1024 .bf16) (p q : Fin 1024) :
    Gen.k0_pay2 (F := Ideal) x0 x1 (ix2 p q) = ∑ k : Fin 1024, x0 (ix2 p k) * x1 (ix2 k q) := by
  unfold Gen.k0_pay2 Gen.k0_pay1
  simp only [shapeCast_self]
  exact dotPlain_apply (truncf .bf16 x0 Facts₀.bitsLt_bf16_f32) x1 p q

/-- The key projection's payload, likewise. -/
theorem pay0k_apply (x0 : Vec Ideal S1024x1024 .f32) (x1 : Vec Ideal S1024x1024 .bf16) (p q : Fin 1024) :
    Gen.k0_pay3 (F := Ideal) x0 x1 (ix2 p q) = ∑ k : Fin 1024, x0 (ix2 p k) * x1 (ix2 k q) := by
  unfold Gen.k0_pay3 Gen.k0_pay1
  simp only [shapeCast_self]
  exact dotPlain_apply (truncf .bf16 x0 Facts₀.bitsLt_bf16_f32) x1 p q

/-- The value projection's payload, likewise. -/
theorem pay0v_apply (x0 : Vec Ideal S1024x1024 .f32) (x1 : Vec Ideal S1024x1024 .bf16) (p q : Fin 1024) :
    Gen.k0_pay4 (F := Ideal) x0 x1 (ix2 p q) = ∑ k : Fin 1024, x0 (ix2 p k) * x1 (ix2 k q) := by
  unfold Gen.k0_pay4 Gen.k0_pay1
  simp only [shapeCast_self]
  exact dotPlain_apply (truncf .bf16 x0 Facts₀.bitsLt_bf16_f32) x1 p q

end Cert.KernelIdeal.RegionValue

end
-- ==== Proof.Region0Value.lean ====
/-
  The three projections' result arrays, for any contents their region is entered with.

  The region runs over 16 grid points; point t loads rows 1024 t … 1024 t + 1023 of the [16384, 1024] input rows and
  the whole of each of the three [1024, 1024] weights, multiplies the row block with each weight, and writes the three
  products back as rows 1024 t … of the three results.  A block product is the same sum over k as the corresponding
  entries of the whole product (`rowsPoint`), so what each point writes back is its block of `Spec.matProd`; row r lies
  in the block of point r / 1024, so the 16 blocks cover each result, which therefore ends holding the whole product.
-/
import proofs.«144823_j58926951301482_2_alg».proof.Proof.RegionDot
import proofs.«144823_j58926951301482_2_alg».proof.Proof.Gen.KernelIdeal.Frame

noncomputable section

open scoped BigOperators

namespace Cert.KernelIdeal.RegionValue

open Cert.KernelIdeal Cert.KernelIdeal.Facts₀ Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The three projections: from blocks to the arrays -/

/-- The projections' index maps over their 16 grid points: point t takes row block t of the input rows and of each
    result, and the whole of each weight. -/
theorem idx0_in : ∀ t : Fin cfg0.N, win0_0.index t (0 : Fin 2) = t.val ∧ win0_0.index t (1 : Fin 2) = 0 :=
  (by decide +kernel : ∀ t : Fin grid0.N, _)
theorem idx0_w1 : ∀ t : Fin cfg0.N, win0_1.index t (0 : Fin 2) = 0 ∧ win0_1.index t (1 : Fin 2) = 0 :=
  (by decide +kernel : ∀ t : Fin grid0.N, _)
theorem idx0_w2 : ∀ t : Fin cfg0.N, win0_2.index t (0 : Fin 2) = 0 ∧ win0_2.index t (1 : Fin 2) = 0 :=
  (by decide +kernel : ∀ t : Fin grid0.N, _)
theorem idx0_w3 : ∀ t : Fin cfg0.N, win0_3.index t (0 : Fin 2) = 0 ∧ win0_3.index t (1 : Fin 2) = 0 :=
  (by decide +kernel : ∀ t : Fin grid0.N, _)
theorem idx0_out4 : ∀ t : Fin cfg0.N, win0_4.index t (0 : Fin 2) = t.val ∧ win0_4.index t (1 : Fin 2) = 0 :=
  (by decide +kernel : ∀ t : Fin grid0.N, _)
theorem idx0_out5 : ∀ t : Fin cfg0.N, win0_5.index t (0 : Fin 2) = t.val ∧ win0_5.index t (1 : Fin 2) = 0 :=
  (by decide +kernel : ∀ t : Fin grid0.N, _)
theorem idx0_out6 : ∀ t : Fin cfg0.N, win0_6.index t (0 : Fin 2) = t.val ∧ win0_6.index t (1 : Fin 2) = 0 :=
  (by decide +kernel : ∀ t : Fin grid0.N, _)

/-- Block t of the input rows is rows 1024 t … 1024 t + 1023. -/
theorem iblk0_0_apply (c : Dev nD) (t : Fin cfg0.N) (y : S1024x1024.Idx) (k : S16384x1024.Idx)
    (hk0 : (k 0).val = t.val * 1024 + (y 0).val) (hk1 : (k 1).val = (y 1).val) :
    (Gen.iblk0 V c 0 t : Vec Ideal S1024x1024 .f32) y = (V c main_v13 : S16384x1024.Idx → EReal) k := by
  obtain ⟨e0, e1⟩ := idx0_in t
  unfold Gen.iblk0
  rw [View.read_apply]
  show V c main_v13 _ = V c main_v13 _
  refine congrArg _ (funext fun a => Fin.ext ?_)
  match a with
  | ⟨0, _⟩ => show win0_0.index t 0 * 1024 + 1 * (y 0).val = (k 0).val; rw [e0, hk0]; omega
  | ⟨1, _⟩ => show win0_0.index t 1 * 1024 + 1 * (y 1).val = (k 1).val; rw [e1, hk1]; omega

/-- Weight window 1's block is the whole array at every point. -/
theorem iblk0_1_apply (c : Dev nD) (t : Fin cfg0.N) (y : S1024x1024.Idx) :
    (Gen.iblk0 V c 1 t : Vec Ideal S1024x1024 .bf16) y = (V c main_v6 : S1024x1024.Idx → EReal) y := by
  obtain ⟨e0, e1⟩ := idx0_w1 t
  unfold Gen.iblk0
  rw [View.read_apply]
  show V c main_v6 _ = V c main_v6 _
  refine congrArg _ (funext fun a => Fin.ext ?_)
  match a with
  | ⟨0, _⟩ => show win0_1.index t 0 * 1024 + 1 * (y 0).val = (y 0).val; rw [e0]; omega
  | ⟨1, _⟩ => show win0_1.index t 1 * 1024 + 1 * (y 1).val = (y 1).val; rw [e1]; omega

/-- Weight window 2's block is the whole array at every point. -/
theorem iblk0_2_apply (c : Dev nD) (t : Fin cfg0.N) (y : S1024x1024.Idx) :
    (Gen.iblk0 V c 2 t : Vec Ideal S1024x1024 .bf16) y = (V c main_v8 : S1024x1024.Idx → EReal) y := by
  obtain ⟨e0, e1⟩ := idx0_w2 t
  unfold Gen.iblk0
  rw [View.read_apply]
  show V c main_v8 _ = V c main_v8 _
  refine congrArg _ (funext fun a => Fin.ext ?_)
  match a with
  | ⟨0, _⟩ => show win0_2.index t 0 * 1024 + 1 * (y 0).val = (y 0).val; rw [e0]; omega
  | ⟨1, _⟩ => show win0_2.index t 1 * 1024 + 1 * (y 1).val = (y 1).val; rw [e1]; omega

/-- Weight window 3's block is the whole array at every point. -/
theorem iblk0_3_apply (c : Dev nD) (t : Fin cfg0.N) (y : S1024x1024.Idx) :
    (Gen.iblk0 V c 3 t : Vec Ideal S1024x1024 .bf16) y = (V c main_v10 : S1024x1024.Idx → EReal) y := by
  obtain ⟨e0, e1⟩ := idx0_w3 t
  unfold Gen.iblk0
  rw [View.read_apply]
  show V c main_v10 _ = V c main_v10 _
  refine congrArg _ (funext fun a => Fin.ext ?_)
  match a with
  | ⟨0, _⟩ => show win0_3.index t 0 * 1024 + 1 * (y 0).val = (y 0).val; rw [e0]; omega
  | ⟨1, _⟩ => show win0_3.index t 1 * 1024 + 1 * (y 1).val = (y 1).val; rw [e1]; omega

/-- What point t of the query projection writes back is block t of the product. -/
theorem flushed0_4_eq (c : Dev nD) (t : Fin cfg0.N) :
    (Gen.dat0 V c).flushed 4 t = ((cfg0.win 4).blk t).view.read (Elt Ideal) (Spec.matProd (V c main_v13) (V c main_v6)) := by
  show (cfg0.win 4).cut (grid0.coords t) ((Gen.dat0 V c).after 4 t) = _
  rw [Gen.after0_4]
  unfold Gen.out0_4
  rw [View.canon_unit_zero hz2]
  simp only [View.ld_unit_zero (S := S1024x1024) hz2]
  obtain ⟨e0, e1⟩ := idx0_out4 t
  have hN : cfg0.N = 16 := Gen.N_0
  have ht : t.val < 16 := by have := t.isLt; omega
  funext j
  show Gen.k0_pay2 (F := Ideal) (Gen.iblk0 V c 0 t) (Gen.iblk0 V c 1 t) j
    = Spec.matProd (V c main_v13) (V c main_v6) (((cfg0.win 4).blk t).view.emb j)
  refine rowsPoint _ (Gen.iblk0 V c 0 t) (Gen.iblk0 V c 1 t) (pay0q_apply (Gen.iblk0 V c 0 t) (Gen.iblk0 V c 1 t)) (V c main_v13) (V c main_v6) t.val ht
    (fun p k => iblk0_0_apply V c t (ix2 p k) _ rfl rfl) (fun y => iblk0_1_apply V c t y) j _ ?_ ?_
  · show win0_4.index t 0 * 1024 + 1 * (j 0).val = t.val * 1024 + (j 0).val; rw [e0]; omega
  · show win0_4.index t 1 * 1024 + 1 * (j 1).val = (j 1).val; rw [e1]; omega

/-- An index of the query projection's result is in point t's block iff each coordinate is in the block's range. -/
theorem mem_blk0_4 (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v14_0).slice (win0_4.rect t)).set ↔ _
  rw [View.set_slice_whole, Rect.mem_set_unit]
  exact Iff.rfl

/-- Row r of the query projection's result lies in the block of point r / 1024. -/
theorem cover0_4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 16 := Gen.N_0
  refine ⟨⟨(i 0).val / 1024, by omega⟩, Gen.flush0_4 _, ?_⟩
  obtain ⟨e0, e1⟩ := idx0_out4 ⟨(i 0).val / 1024, by omega⟩
  rw [mem_blk0_4]
  intro a
  match a with
  | ⟨0, _⟩ => show win0_4.index _ 0 * 1024 ≤ (i 0).val ∧ (i 0).val < win0_4.index _ 0 * 1024 + 1024; rw [e0]; show (i 0).val / 1024 * 1024 ≤ (i 0).val ∧ (i 0).val < (i 0).val / 1024 * 1024 + 1024; omega
  | ⟨1, _⟩ => show win0_4.index _ 1 * 1024 ≤ (i 1).val ∧ (i 1).val < win0_4.index _ 1 * 1024 + 1024; rw [e1]; omega

/-- THE QUERY PROJECTION'S RESULT: the product of the input rows and the query weight as the region finds them. -/
theorem region0_q (c : Dev nD) :
    (Gen.dat0 (F := Ideal) V c).arrAt 4 cfg0.N = Spec.matProd (V c main_v13) (V c main_v6) :=
  (Gen.dat0 V c).arrAt_eq_of_cover 4 (Spec.matProd (V c main_v13) (V c main_v6)) (fun t _ => flushed0_4_eq V c t) cover0_4

/-- What point t of the key projection writes back is block t of the product. -/
theorem flushed0_5_eq (c : Dev nD) (t : Fin cfg0.N) :
    (Gen.dat0 V c).flushed 5 t = ((cfg0.win 5).blk t).view.read (Elt Ideal) (Spec.matProd (V c main_v13) (V c main_v8)) := by
  show (cfg0.win 5).cut (grid0.coords t) ((Gen.dat0 V c).after 5 t) = _
  rw [Gen.after0_5]
  unfold Gen.out0_5
  rw [View.canon_unit_zero hz2]
  simp only [View.ld_unit_zero (S := S1024x1024) hz2]
  obtain ⟨e0, e1⟩ := idx0_out5 t
  have hN : cfg0.N = 16 := Gen.N_0
  have ht : t.val < 16 := by have := t.isLt; omega
  funext j
  show Gen.k0_pay3 (F := Ideal) (Gen.iblk0 V c 0 t) (Gen.iblk0 V c 2 t) j
    = Spec.matProd (V c main_v13) (V c main_v8) (((cfg0.win 5).blk t).view.emb j)
  refine rowsPoint _ (Gen.iblk0 V c 0 t) (Gen.iblk0 V c 2 t) (pay0k_apply (Gen.iblk0 V c 0 t) (Gen.iblk0 V c 2 t)) (V c main_v13) (V c main_v8) t.val ht
    (fun p k => iblk0_0_apply V c t (ix2 p k) _ rfl rfl) (fun y => iblk0_2_apply V c t y) j _ ?_ ?_
  · show win0_5.index t 0 * 1024 + 1 * (j 0).val = t.val * 1024 + (j 0).val; rw [e0]; omega
  · show win0_5.index t 1 * 1024 + 1 * (j 1).val = (j 1).val; rw [e1]; omega

/-- An index of the key projection's result is in point t's block iff each coordinate is in the block's range. -/
theorem mem_blk0_5 (t : Fin cfg0.N) (i : S16384x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v14_1).slice (win0_5.rect t)).set ↔ _
  rw [View.set_slice_whole, Rect.mem_set_unit]
  exact Iff.rfl

/-- Row r of the key projection's result lies in the block of point r / 1024. -/
theorem cover0_5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 16 := Gen.N_0
  refine ⟨⟨(i 0).val / 1024, by omega⟩, Gen.flush0_5 _, ?_⟩
  obtain ⟨e0, e1⟩ := idx0_out5 ⟨(i 0).val / 1024, by omega⟩
  rw [mem_blk0_5]
  intro a
  match a with
  | ⟨0, _⟩ => show win0_5.index _ 0 * 1024 ≤ (i 0).val ∧ (i 0).val < win0_5.index _ 0 * 1024 + 1024; rw [e0]; show (i 0).val / 1024 * 1024 ≤ (i 0).val ∧ (i 0).val < (i 0).val / 1024 * 1024 + 1024; omega
  | ⟨1, _⟩ => show win0_5.index _ 1 * 1024 ≤ (i 1).val ∧ (i 1).val < win0_5.index _ 1 * 1024 + 1024; rw [e1]; omega

/-- THE KEY PROJECTION'S RESULT: the product of the input rows and the key weight as the region finds them. -/
theorem region0_k (c : Dev nD) :
    (Gen.dat0 (F := Ideal) V c).arrAt 5 cfg0.N = Spec.matProd (V c main_v13) (V c main_v8) :=
  (Gen.dat0 V c).arrAt_eq_of_cover 5 (Spec.matProd (V c main_v13) (V c main_v8)) (fun t _ => flushed0_5_eq V c t) cover0_5

/-- What point t of the value projection writes back is block t of the product. -/
theorem flushed0_6_eq (c : Dev nD) (t : Fin cfg0.N) :
    (Gen.dat0 V c).flushed 6 t = ((cfg0.win 6).blk t).view.read (Elt Ideal) (Spec.matProd (V c main_v13) (V c main_v10)) := by
  show (cfg0.win 6).cut (grid0.coords t) ((Gen.dat0 V c).after 6 t) = _
  rw [Gen.after0_6]
  unfold Gen.out0_6
  rw [View.canon_unit_zero hz2]
  simp only [View.ld_unit_zero (S := S1024x1024) hz2]
  obtain ⟨e0, e1⟩ := idx0_out6 t
  have hN : cfg0.N = 16 := Gen.N_0
  have ht : t.val < 16 := by have := t.isLt; omega
  funext j
  show Gen.k0_pay4 (F := Ideal) (Gen.iblk0 V c 0 t) (Gen.iblk0 V c 3 t) j
    = Spec.matProd (V c main_v13) (V c main_v10) (((cfg0.win 6).blk t).view.emb j)
  refine rowsPoint _ (Gen.iblk0 V c 0 t) (Gen.iblk0 V c 3 t) (pay0v_apply (Gen.iblk0 V c 0 t) (Gen.iblk0 V c 3 t)) (V c main_v13) (V c main_v10) t.val ht
    (fun p k => iblk0_0_apply V c t (ix2 p k) _ rfl rfl) (fun y => iblk0_3_apply V c t y) j _ ?_ ?_
  · show win0_6.index t 0 * 1024 + 1 * (j 0).val = t.val * 1024 + (j 0).val; rw [e0]; omega
  · show win0_6.index t 1 * 1024 + 1 * (j 1).val = (j 1).val; rw [e1]; omega

/-- An index of the value projection's result is in point t's block iff each coordinate is in the block's range. -/
theorem mem_blk0_6 (t : Fin cfg0.N) (i : S16384x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v14_2).slice (win0_6.rect t)).set ↔ _
  rw [View.set_slice_whole, Rect.mem_set_unit]
  exact Iff.rfl

/-- Row r of the value projection's result lies in the block of point r / 1024. -/
theorem cover0_6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 16 := Gen.N_0
  refine ⟨⟨(i 0).val / 1024, by omega⟩, Gen.flush0_6 _, ?_⟩
  obtain ⟨e0, e1⟩ := idx0_out6 ⟨(i 0).val / 1024, by omega⟩
  rw [mem_blk0_6]
  intro a
  match a with
  | ⟨0, _⟩ => show win0_6.index _ 0 * 1024 ≤ (i 0).val ∧ (i 0).val < win0_6.index _ 0 * 1024 + 1024; rw [e0]; show (i 0).val / 1024 * 1024 ≤ (i 0).val ∧ (i 0).val < (i 0).val / 1024 * 1024 + 1024; omega
  | ⟨1, _⟩ => show win0_6.index _ 1 * 1024 ≤ (i 1).val ∧ (i 1).val < win0_6.index _ 1 * 1024 + 1024; rw [e1]; omega

/-- THE VALUE PROJECTION'S RESULT: the product of the input rows and the value weight as the region finds them. -/
theorem region0_v (c : Dev nD) :
    (Gen.dat0 (F := Ideal) V c).arrAt 6 cfg0.N = Spec.matProd (V c main_v13) (V c main_v10) :=
  (Gen.dat0 V c).arrAt_eq_of_cover 6 (Spec.matProd (V c main_v13) (V c main_v10)) (fun t _ => flushed0_6_eq V c t) cover0_6

end Cert.KernelIdeal.RegionValue

end
-- ==== Proof.AttnPayload.lean ====
/-
  The attention step's arithmetic on one block, read at an entry.  The block computation is: scores = Q·Kᵀ per head
  slot, their exponentials, the row sums of those plus ε, the quotient, and its product with V.  Each operation is
  read at coordinates here — the two batched products as sums over their contracted axis, the lane sum as a sum over
  the 64 keys, the layout operations (dropping or adding a leading unit axis, a column repeated along the lanes) as
  re-indexings — and `pay1_apply` composes them into the formula of `Spec.attn`.
-/
import proofs.«144823_j58926951301482_2_alg».proof.Proof.Spec
import proofs.«144823_j58926951301482_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Facts₀ Idealize.ShloMosaic Idealize.ShloMosaic.TcCoe Idealize.SL.Sem
open Idealize.ShloMosaic.ValueIdx
open Idealize.ShloMosaic.Pipeline (Dat)

/-! ## The attention body's two batched products read at an entry -/

theorem lhsQK_0 (i : S32x128x64.Idx) (q : dot_S32x128x64_S32x64x64_S32x128x64_2_2_1_1_0_0.contr.Idx) :
    (dot_S32x128x64_S32x64x64_S32x128x64_2_2_1_1_0_0.lhsIdx i q 0).val = (i 0).val := by
  unfold DotDims.lhsIdx
  rw [dif_pos (show (0 : Fin S32x128x64.rank) ∈ dot_S32x128x64_S32x64x64_S32x128x64_2_2_1_1_0_0.lhsBatch by decide)]
  rfl
theorem lhsQK_1 (i : S32x128x64.Idx) (q : dot_S32x128x64_S32x64x64_S32x128x64_2_2_1_1_0_0.contr.Idx) :
    (dot_S32x128x64_S32x64x64_S32x128x64_2_2_1_1_0_0.lhsIdx i q 1).val = (i 1).val := by
  unfold DotDims.lhsIdx
  rw [dif_neg (show ¬(1 : Fin S32x128x64.rank) ∈ dot_S32x128x64_S32x64x64_S32x128x64_2_2_1_1_0_0.lhsBatch by decide), dif_pos (show (1 : Fin S32x128x64.rank) ∈ dot_S32x128x64_S32x64x64_S32x128x64_2_2_1_1_0_0.lhsNonContracting by decide)]
  rfl
theorem lhsQK_2 (i : S32x128x64.Idx) (q : dot_S32x128x64_S32x64x64_S32x128x64_2_2_1_1_0_0.contr.Idx) :
    (dot_S32x128x64_S32x64x64_S32x128x64_2_2_1_1_0_0.lhsIdx i q 2).val = (q ⟨0, by decide⟩).val :=
  dot_S32x128x64_S32x64x64_S32x128x64_2_2_1_1_0_0.lhsIdx_val_of_single rfl i q
theorem rhsQK_0 (i : S32x128x64.Idx) (q : dot_S32x128x64_S32x64x64_S32x128x64_2_2_1_1_0_0.contr.Idx) :
    (dot_S32x128x64_S32x64x64_S32x128x64_2_2_1_1_0_0.rhsIdx i q 0).val = (i 0).val := by
  unfold DotDims.rhsIdx
  rw [dif_pos (show (0 : Fin S32x64x64.rank) ∈ dot_S32x128x64_S32x64x64_S32x128x64_2_2_1_1_0_0.rhsBatch by decide)]
  rfl
theorem rhsQK_1 (i : S32x128x64.Idx) (q : dot_S32x128x64_S32x64x64_S32x128x64_2_2_1_1_0_0.contr.Idx) :
    (dot_S32x128x64_S32x64x64_S32x128x64_2_2_1_1_0_0.rhsIdx i q 1).val = (i 2).val := by
  unfold DotDims.rhsIdx
  rw [dif_neg (show ¬(1 : Fin S32x64x64.rank) ∈ dot_S32x128x64_S32x64x64_S32x128x64_2_2_1_1_0_0.rhsBatch by decide), dif_pos (show (1 : Fin S32x64x64.rank) ∈ dot_S32x128x64_S32x64x64_S32x128x64_2_2_1_1_0_0.rhsNonContracting by decide)]
  rfl
theorem rhsQK_2 (i : S32x128x64.Idx) (q : dot_S32x128x64_S32x64x64_S32x128x64_2_2_1_1_0_0.contr.Idx) :
    (dot_S32x128x64_S32x64x64_S32x128x64_2_2_1_1_0_0.rhsIdx i q 2).val = (q ⟨0, by decide⟩).val :=
  dot_S32x128x64_S32x64x64_S32x128x64_2_2_1_1_0_0.rhsIdx_val_of_single rfl i q

/-- The batched score product into the zero accumulator: entry (b, s, j) is the sum over the channel d of l(b, s, d) · r(b, j, d). -/
theorem dotQK_apply (l : FVec Ideal S32x128x64 .bf16) (r : FVec Ideal S32x64x64 .bf16) (b : Fin 32) (s : Fin 128) (e : Fin 64) :
    matmul dot_S32x128x64_S32x64x64_S32x128x64_2_2_1_1_0_0 none l r (constant (F := Ideal) S32x128x64 .f32 0x00000000#32) (ix3 b s e)
      = ∑ k : Fin 64, l (ix3 b s k) * r (ix3 b e k) := by
  simp only [matmul]
  rw [Ideal.matmul_constant_zero_apply, ← Equiv.sum_comp (ValueIdx.contrEquiv1 dot_S32x128x64_S32x64x64_S32x128x64_2_2_1_1_0_0 64 rfl rfl).symm]
  refine Finset.sum_congr rfl fun k _ => ?_
  have hk := ValueIdx.contrEquiv1_symm_val dot_S32x128x64_S32x64x64_S32x128x64_2_2_1_1_0_0 64 rfl rfl k
  have el : dot_S32x128x64_S32x64x64_S32x128x64_2_2_1_1_0_0.lhsIdx (ix3 b s e) ((ValueIdx.contrEquiv1 dot_S32x128x64_S32x64x64_S32x128x64_2_2_1_1_0_0 64 rfl rfl).symm k) = ix3 b s k := funext fun a => Fin.ext (by
    match a with
    | ⟨0, _⟩ => exact lhsQK_0 _ _
    | ⟨1, _⟩ => exact lhsQK_1 _ _
    | ⟨2, _⟩ => exact (lhsQK_2 _ _).trans hk)
  have er : dot_S32x128x64_S32x64x64_S32x128x64_2_2_1_1_0_0.rhsIdx (ix3 b s e) ((ValueIdx.contrEquiv1 dot_S32x128x64_S32x64x64_S32x128x64_2_2_1_1_0_0 64 rfl rfl).symm k) = ix3 b e k := funext fun a => Fin.ext (by
    match a with
    | ⟨0, _⟩ => exact rhsQK_0 _ _
    | ⟨1, _⟩ => exact rhsQK_1 _ _
    | ⟨2, _⟩ => exact (rhsQK_2 _ _).trans hk)
  rw [el, er]

theorem lhsPV_0 (i : S32x128x64.Idx) (q : dot_S32x128x64_S32x64x64_S32x128x64_2_1_1_2_0_0.contr.Idx) :
    (dot_S32x128x64_S32x64x64_S32x128x64_2_1_1_2_0_0.lhsIdx i q 0).val = (i 0).val := by
  unfold DotDims.lhsIdx
  rw [dif_pos (show (0 : Fin S32x128x64.rank) ∈ dot_S32x128x64_S32x64x64_S32x128x64_2_1_1_2_0_0.lhsBatch by decide)]
  rfl
theorem lhsPV_1 (i : S32x128x64.Idx) (q : dot_S32x128x64_S32x64x64_S32x128x64_2_1_1_2_0_0.contr.Idx) :
    (dot_S32x128x64_S32x64x64_S32x128x64_2_1_1_2_0_0.lhsIdx i q 1).val = (i 1).val := by
  unfold DotDims.lhsIdx
  rw [dif_neg (show ¬(1 : Fin S32x128x64.rank) ∈ dot_S32x128x64_S32x64x64_S32x128x64_2_1_1_2_0_0.lhsBatch by decide), dif_pos (show (1 : Fin S32x128x64.rank) ∈ dot_S32x128x64_S32x64x64_S32x128x64_2_1_1_2_0_0.lhsNonContracting by decide)]
  rfl
theorem lhsPV_2 (i : S32x128x64.Idx) (q : dot_S32x128x64_S32x64x64_S32x128x64_2_1_1_2_0_0.contr.Idx) :
    (dot_S32x128x64_S32x64x64_S32x128x64_2_1_1_2_0_0.lhsIdx i q 2).val = (q ⟨0, by decide⟩).val :=
  dot_S32x128x64_S32x64x64_S32x128x64_2_1_1_2_0_0.lhsIdx_val_of_single rfl i q
theorem rhsPV_0 (i : S32x128x64.Idx) (q : dot_S32x128x64_S32x64x64_S32x128x64_2_1_1_2_0_0.contr.Idx) :
    (dot_S32x128x64_S32x64x64_S32x128x64_2_1_1_2_0_0.rhsIdx i q 0).val = (i 0).val := by
  unfold DotDims.rhsIdx
  rw [dif_pos (show (0 : Fin S32x64x64.rank) ∈ dot_S32x128x64_S32x64x64_S32x128x64_2_1_1_2_0_0.rhsBatch by decide)]
  rfl
theorem rhsPV_1 (i : S32x128x64.Idx) (q : dot_S32x128x64_S32x64x64_S32x128x64_2_1_1_2_0_0.contr.Idx) :
    (dot_S32x128x64_S32x64x64_S32x128x64_2_1_1_2_0_0.rhsIdx i q 1).val = (q ⟨0, by decide⟩).val :=
  dot_S32x128x64_S32x64x64_S32x128x64_2_1_1_2_0_0.rhsIdx_val_of_single rfl i q
theorem rhsPV_2 (i : S32x128x64.Idx) (q : dot_S32x128x64_S32x64x64_S32x128x64_2_1_1_2_0_0.contr.Idx) :
    (dot_S32x128x64_S32x64x64_S32x128x64_2_1_1_2_0_0.rhsIdx i q 2).val = (i 2).val := by
  unfold DotDims.rhsIdx
  rw [dif_neg (show ¬(2 : Fin S32x64x64.rank) ∈ dot_S32x128x64_S32x64x64_S32x128x64_2_1_1_2_0_0.rhsBatch by decide), dif_pos (show (2 : Fin S32x64x64.rank) ∈ dot_S32x128x64_S32x64x64_S32x128x64_2_1_1_2_0_0.rhsNonContracting by decide)]
  rfl

/-- The batched weighted sum into the zero accumulator: entry (b, s, d) is the sum over the key j of l(b, s, j) · r(b, j, d). -/
theorem dotPV_apply (l : FVec Ideal S32x128x64 .bf16) (r : FVec Ideal S32x64x64 .bf16) (b : Fin 32) (s : Fin 128) (e : Fin 64) :
    matmul dot_S32x128x64_S32x64x64_S32x128x64_2_1_1_2_0_0 none l r (constant (F := Ideal) S32x128x64 .f32 0x00000000#32) (ix3 b s e)
      = ∑ k : Fin 64, l (ix3 b s k) * r (ix3 b k e) := by
  simp only [matmul]
  rw [Ideal.matmul_constant_zero_apply, ← Equiv.sum_comp (ValueIdx.contrEquiv1 dot_S32x128x64_S32x64x64_S32x128x64_2_1_1_2_0_0 64 rfl rfl).symm]
  refine Finset.sum_congr rfl fun k _ => ?_
  have hk := ValueIdx.contrEquiv1_symm_val dot_S32x128x64_S32x64x64_S32x128x64_2_1_1_2_0_0 64 rfl rfl k
  have el : dot_S32x128x64_S32x64x64_S32x128x64_2_1_1_2_0_0.lhsIdx (ix3 b s e) ((ValueIdx.contrEquiv1 dot_S32x128x64_S32x64x64_S32x128x64_2_1_1_2_0_0 64 rfl rfl).symm k) = ix3 b s k := funext fun a => Fin.ext (by
    match a with
    | ⟨0, _⟩ => exact lhsPV_0 _ _
    | ⟨1, _⟩ => exact lhsPV_1 _ _
    | ⟨2, _⟩ => exact (lhsPV_2 _ _).trans hk)
  have er : dot_S32x128x64_S32x64x64_S32x128x64_2_1_1_2_0_0.rhsIdx (ix3 b s e) ((ValueIdx.contrEquiv1 dot_S32x128x64_S32x64x64_S32x128x64_2_1_1_2_0_0 64 rfl rfl).symm k) = ix3 b k e := funext fun a => Fin.ext (by
    match a with
    | ⟨0, _⟩ => exact rhsPV_0 _ _
    | ⟨1, _⟩ => exact (rhsPV_1 _ _).trans hk
    | ⟨2, _⟩ => exact rhsPV_2 _ _)
  rw [el, er]

/-! ## The attention body's lane sum and layout operations read at an entry -/

/-- The sum over the 64 keys of a [32, 128, 64] block, at (b, s). -/
theorem laneSum_apply (src : FVec Ideal S32x128x64 .f32) (hφ : FKind.Formats .f32) (hacc : (0x00000000#32 : BitVec 32) = 0x00000000#32)
    (b : Fin 32) (s : Fin 128) :
    multiReduction .add [2] S32x128 src 0x00000000#32 reduces_S32x128x64_S32x128 hφ hacc (ix2 b s) = ∑ j : Fin 64, src (ix3 b s j) := by
  refine (Ideal.multiReduction_add_single src 0x00000000#32 reduces_S32x128x64_S32x128 hφ hacc (ix2 b s)).trans ?_
  show ∑ j : Fin 64, src (reduces_S32x128x64_S32x128.lift (ix2 b s) j) = _
  refine Finset.sum_congr rfl fun j _ => congrArg src (funext fun a => Fin.ext ?_)
  match a with
  | ⟨0, _⟩ => rfl
  | ⟨1, _⟩ => rfl
  | ⟨2, _⟩ => rfl

/-- A [32, 128] array read as [32, 128, 1]. -/
theorem colCast_apply {α : Type} (v : S32x128.Idx → α) (b : Fin 32) (s : Fin 128) (z : Fin 1) :
    shapeCast S32x128x1 v shapeCasts_S32x128_S32x128x1 (ix3 b s z) = v (ix2 b s) := by
  refine shapeCast_apply v _ (ix3 b s z) (ix2 b s) ?_
  rw [Shape.rowMajor_val_two, Shape.rowMajor_val_three]
  have := z.isLt
  show b.val * 128 + s.val = (b.val * 128 + s.val) * 1 + z.val
  omega

/-- A [32, 128, 1] array repeated along 64 lanes. -/
theorem colBroadcast_apply {α : Type} (v : S32x128x1.Idx → α) (b : Fin 32) (s : Fin 128) (j : Fin 64) :
    broadcastTo S32x128x64 v broadcasts_S32x128x1_S32x128x64 (ix3 b s j) = v (ix3 b s (0 : Fin 1)) := by
  refine broadcastTo_apply v _ (ix3 b s j) (ix3 b s (0 : Fin 1)) fun a => ?_
  match a with
  | ⟨0, _⟩ => rfl
  | ⟨1, _⟩ => rfl
  | ⟨2, _⟩ => rfl

/-- A [1, 32, 128, 64] block read as [32, 128, 64]. -/
theorem dropUnitQ_apply {α : Type} (v : S1x32x128x64.Idx → α) (b : Fin 32) (s : Fin 128) (d : Fin 64) :
    shapeCast S32x128x64 v shapeCasts_S1x32x128x64_S32x128x64 (ix3 b s d) = v (ix4 (0 : Fin 1) b s d) := by
  refine shapeCast_apply v _ (ix3 b s d) (ix4 (0 : Fin 1) b s d) ?_
  rw [Shape.rowMajor_val_three, Shape.rowMajor_val_four]
  show ((0 * 32 + b.val) * 128 + s.val) * 64 + d.val = (b.val * 128 + s.val) * 64 + d.val
  omega

/-- A [1, 32, 64, 64] block read as [32, 64, 64]. -/
theorem dropUnitK_apply {α : Type} (v : S1x32x64x64.Idx → α) (b : Fin 32) (j : Fin 64) (d : Fin 64) :
    shapeCast S32x64x64 v shapeCasts_S1x32x64x64_S32x64x64 (ix3 b j d) = v (ix4 (0 : Fin 1) b j d) := by
  refine shapeCast_apply v _ (ix3 b j d) (ix4 (0 : Fin 1) b j d) ?_
  rw [Shape.rowMajor_val_three, Shape.rowMajor_val_four]
  show ((0 * 32 + b.val) * 64 + j.val) * 64 + d.val = (b.val * 64 + j.val) * 64 + d.val
  omega

/-- A [32, 128, 64] result stored as a [1, 32, 128, 64] block. -/
theorem addUnitQ_apply {α : Type} (v : S32x128x64.Idx → α) (z : Fin 1) (b : Fin 32) (s : Fin 128) (d : Fin 64) :
    shapeCast S1x32x128x64 v shapeCasts_S32x128x64_S1x32x128x64 (ix4 z b s d) = v (ix3 b s d) := by
  refine shapeCast_apply v _ (ix4 z b s d) (ix3 b s d) ?_
  rw [Shape.rowMajor_val_three, Shape.rowMajor_val_four]
  have := z.isLt
  show (b.val * 128 + s.val) * 64 + d.val = ((z.val * 32 + b.val) * 128 + s.val) * 64 + d.val
  omega

/-! ## The block computation at an entry -/

/-- Entry (bh, s, d) of the attention block: the sum over the 64 keys of (exp score / (Σ exp scores + ε)) · value. -/
theorem pay1_apply (x0 : Vec Ideal S1x32x128x64 .bf16) (x1 x2 : Vec Ideal S1x32x64x64 .bf16) (bh : Fin 32) (s : Fin 128) (d : Fin 64) :
    Gen.k1_pay1 (F := Ideal) x0 x1 x2 (ix4 (0 : Fin 1) bh s d)
      = ∑ j : Fin 64, Ideal.div (Ideal.exp (∑ d' : Fin 64, x0 (ix4 (0 : Fin 1) bh s d') * x1 (ix4 (0 : Fin 1) bh j d')))
          ((∑ j' : Fin 64, Ideal.exp (∑ d' : Fin 64, x0 (ix4 (0 : Fin 1) bh s d') * x1 (ix4 (0 : Fin 1) bh j' d'))) + Spec.eps)
          * x2 (ix4 (0 : Fin 1) bh j d) := by
  have hs : ∀ j' : Fin 64,
      matmul dot_S32x128x64_S32x64x64_S32x128x64_2_2_1_1_0_0 none
          (shapeCast S32x128x64 x0 shapeCasts_S1x32x128x64_S32x128x64) (shapeCast S32x64x64 x1 shapeCasts_S1x32x64x64_S32x64x64)
          (constant (F := Ideal) S32x128x64 .f32 0x00000000#32) (ix3 bh s j')
        = ∑ d' : Fin 64, x0 (ix4 (0 : Fin 1) bh s d') * x1 (ix4 (0 : Fin 1) bh j' d') := fun j' =>
    (dotQK_apply _ _ bh s j').trans (Finset.sum_congr rfl fun d' _ =>
      congrArg₂ (· * ·) (dropUnitQ_apply x0 bh s d') (dropUnitK_apply x1 bh j' d'))
  unfold Gen.k1_pay1
  dsimp only
  refine (addUnitQ_apply _ (0 : Fin 1) bh s d).trans ?_
  refine (truncf_apply (φ := .f32) (ψ := .bf16) _ Gen.bitsLt_bf16_f32 (ix3 bh s d)).trans ?_
  refine (dotPV_apply _ _ bh s d).trans ?_
  refine Finset.sum_congr rfl fun j _ => ?_
  refine congrArg₂ (· * ·) ?_ (dropUnitK_apply x2 bh j d)
  refine (truncf_apply (φ := .f32) (ψ := .bf16) _ Gen.bitsLt_bf16_f32 (ix3 bh s j)).trans ((divf_apply (φ := .f32) _ _ _).trans ?_)
  refine congrArg₂ Ideal.div ?_ ?_
  · exact congrArg Ideal.exp (hs j)
  · refine (colBroadcast_apply _ bh s j).trans ?_
    refine (addf_apply (φ := .f32) _ _ _).trans ?_
    refine congrArg₂ (· + ·) ?_ rfl
    refine (colCast_apply _ bh s (0 : Fin 1)).trans ?_
    refine (laneSum_apply _ _ _ bh s).trans ?_
    exact Finset.sum_congr rfl fun j' _ => congrArg Ideal.exp (hs j')

end Cert.KernelIdeal.RegionValue

end
-- ==== Proof.Region1Value.lean ====
/-
  The attention step's result array, for any contents its region is entered with.

  The region runs over 64 grid points; point t loads the slices [t, :, :, :] of the query array [64, 32, 128, 64] and of
  the key and value arrays [64, 32, 64, 64], computes for every head slot and query row the weights — the exponential
  of each score divided by (the sum of the 64 exponentials plus ε) — and the weighted sum of the value rows, and writes
  the result back as the slice [t, :, :, :] of the output.  Entry (0, bh, s, d) of a block is entry (t, bh, s, d) of its
  array, so the payload's sums are term by term those of `Spec.attn` at (t, bh, s, d); entry (n, …) lies in the block of
  point n, so the 64 blocks cover the output, which therefore ends holding `Spec.attn` of the three arrays.
-/
import proofs.«144823_j58926951301482_2_alg».proof.Proof.AttnPayload
import proofs.«144823_j58926951301482_2_alg».proof.Proof.Gen.KernelIdeal.Frame

noncomputable section

open scoped BigOperators

namespace Cert.KernelIdeal.RegionValue

open Cert.KernelIdeal Cert.KernelIdeal.Facts₀ Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The attention step: from blocks to the array -/

theorem hz4 : (![0, 0, 0, 0] : Fin 4 → Nat) = fun _ => 0 := funext fun a => by fin_cases a <;> rfl

/-- The attention step's index maps over its 64 grid points: point t takes the slice [t, :, :, :] of each of its
    four arrays. -/
theorem idx1_0 : ∀ t : Fin cfg1.N, win1_0.index t (0 : Fin 4) = t.val ∧ win1_0.index t (1 : Fin 4) = 0 ∧ win1_0.index t (2 : Fin 4) = 0 ∧ win1_0.index t (3 : Fin 4) = 0 :=
  (by decide +kernel : ∀ t : Fin grid1.N, _)
theorem idx1_1 : ∀ t : Fin cfg1.N, win1_1.index t (0 : Fin 4) = t.val ∧ win1_1.index t (1 : Fin 4) = 0 ∧ win1_1.index t (2 : Fin 4) = 0 ∧ win1_1.index t (3 : Fin 4) = 0 :=
  (by decide +kernel : ∀ t : Fin grid1.N, _)
theorem idx1_2 : ∀ t : Fin cfg1.N, win1_2.index t (0 : Fin 4) = t.val ∧ win1_2.index t (1 : Fin 4) = 0 ∧ win1_2.index t (2 : Fin 4) = 0 ∧ win1_2.index t (3 : Fin 4) = 0 :=
  (by decide +kernel : ∀ t : Fin grid1.N, _)
theorem idx1_3 : ∀ t : Fin cfg1.N, win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

/-- Block t of window 0's array is its slice [t, :, :, :]. -/
theorem iblk1_0_apply (c : Dev nD) (t : Fin cfg1.N) (y : S1x32x128x64.Idx) (k : S64x32x128x64.Idx)
    (hk0 : (k 0).val = t.val + (y 0).val) (hk1 : (k 1).val = (y 1).val) (hk2 : (k 2).val = (y 2).val) (hk3 : (k 3).val = (y 3).val) :
    (Gen.iblk1 V c 0 t : Vec Ideal S1x32x128x64 .bf16) y = (V c main_v35 : S64x32x128x64.Idx → EReal) k := by
  obtain ⟨e0, e1, e2, e3⟩ := idx1_0 t
  unfold Gen.iblk1
  rw [View.read_apply]
  show V c main_v35 _ = V c main_v35 _
  refine congrArg _ (funext fun a => Fin.ext ?_)
  match a with
  | ⟨0, _⟩ => show win1_0.index t 0 * 1 + 1 * (y 0).val = (k 0).val; rw [e0, hk0]; omega
  | ⟨1, _⟩ => show win1_0.index t 1 * 32 + 1 * (y 1).val = (k 1).val; rw [e1, hk1]; omega
  | ⟨2, _⟩ => show win1_0.index t 2 * 128 + 1 * (y 2).val = (k 2).val; rw [e2, hk2]; omega
  | ⟨3, _⟩ => show win1_0.index t 3 * 64 + 1 * (y 3).val = (k 3).val; rw [e3, hk3]; omega

/-- Block t of window 1's array is its slice [t, :, :, :]. -/
theorem iblk1_1_apply (c : Dev nD) (t : Fin cfg1.N) (y : S1x32x64x64.Idx) (k : S64x32x64x64.Idx)
    (hk0 : (k 0).val = t.val + (y 0).val) (hk1 : (k 1).val = (y 1).val) (hk2 : (k 2).val = (y 2).val) (hk3 : (k 3).val = (y 3).val) :
    (Gen.iblk1 V c 1 t : Vec Ideal S1x32x64x64 .bf16) y = (V c main_v53 : S64x32x64x64.Idx → EReal) k := by
  obtain ⟨e0, e1, e2, e3⟩ := idx1_1 t
  unfold Gen.iblk1
  rw [View.read_apply]
  show V c main_v53 _ = V c main_v53 _
  refine congrArg _ (funext fun a => Fin.ext ?_)
  match a with
  | ⟨0, _⟩ => show win1_1.index t 0 * 1 + 1 * (y 0).val = (k 0).val; rw [e0, hk0]; omega
  | ⟨1, _⟩ => show win1_1.index t 1 * 32 + 1 * (y 1).val = (k 1).val; rw [e1, hk1]; omega
  | ⟨2, _⟩ => show win1_1.index t 2 * 64 + 1 * (y 2).val = (k 2).val; rw [e2, hk2]; omega
  | ⟨3, _⟩ => show win1_1.index t 3 * 64 + 1 * (y 3).val = (k 3).val; rw [e3, hk3]; omega

/-- Block t of window 2's array is its slice [t, :, :, :]. -/
theorem iblk1_2_apply (c : Dev nD) (t : Fin cfg1.N) (y : S1x32x64x64.Idx) (k : S64x32x64x64.Idx)
    (hk0 : (k 0).val = t.val + (y 0).val) (hk1 : (k 1).val = (y 1).val) (hk2 : (k 2).val = (y 2).val) (hk3 : (k 3).val = (y 3).val) :
    (Gen.iblk1 V c 2 t : Vec Ideal S1x32x64x64 .bf16) y = (V c main_v55 : S64x32x64x64.Idx → EReal) k := by
  obtain ⟨e0, e1, e2, e3⟩ := idx1_2 t
  unfold Gen.iblk1
  rw [View.read_apply]
  show V c main_v55 _ = V c main_v55 _
  refine congrArg _ (funext fun a => Fin.ext ?_)
  match a with
  | ⟨0, _⟩ => show win1_2.index t 0 * 1 + 1 * (y 0).val = (k 0).val; rw [e0, hk0]; omega
  | ⟨1, _⟩ => show win1_2.index t 1 * 32 + 1 * (y 1).val = (k 1).val; rw [e1, hk1]; omega
  | ⟨2, _⟩ => show win1_2.index t 2 * 64 + 1 * (y 2).val = (k 2).val; rw [e2, hk2]; omega
  | ⟨3, _⟩ => show win1_2.index t 3 * 64 + 1 * (y 3).val = (k 3).val; rw [e3, hk3]; omega

/-- One point of the attention step: if the three blocks are the slices [n, :, :, :] of Q, K and V, the payload at
    (0, bh, s, d) is the attention output at (n, bh, s, d). -/
theorem point1 (x0 : Vec Ideal S1x32x128x64 .bf16) (x1 x2 : Vec Ideal S1x32x64x64 .bf16)
    (Q : S64x32x128x64.Idx → EReal) (K Vv : S64x32x64x64.Idx → EReal) (n : Fin 64)
    (h0 : ∀ (bh : Fin 32) (s : Fin 128) (d : Fin 64), x0 (ix4 (0 : Fin 1) bh s d) = Q (ix4 n bh s d))
    (h1 : ∀ (bh : Fin 32) (j : Fin 64) (d : Fin 64), x1 (ix4 (0 : Fin 1) bh j d) = K (ix4 n bh j d))
    (h2 : ∀ (bh : Fin 32) (j : Fin 64) (d : Fin 64), x2 (ix4 (0 : Fin 1) bh j d) = Vv (ix4 n bh j d))
    (j : S1x32x128x64.Idx) (i : S64x32x128x64.Idx)
    (hi0 : (i 0).val = n.val) (hi1 : (i 1).val = (j 1).val) (hi2 : (i 2).val = (j 2).val) (hi3 : (i 3).val = (j 3).val) :
    Gen.k1_pay1 (F := Ideal) x0 x1 x2 j = Spec.attn Q K Vv i := by
  obtain ⟨z, bh, s, d, rfl⟩ : ∃ (z : Fin 1) (bh : Fin 32) (s : Fin 128) (d : Fin 64), j = ix4 z bh s d :=
    ⟨j 0, j 1, j 2, j 3, eq_ix4 j⟩
  obtain rfl : z = 0 := Subsingleton.elim _ _
  obtain ⟨n', bh', s', d', rfl⟩ : ∃ (n' : Fin 64) (bh' : Fin 32) (s' : Fin 128) (d' : Fin 64), i = ix4 n' bh' s' d' :=
    ⟨i 0, i 1, i 2, i 3, eq_ix4 i⟩
  obtain rfl : n = n' := (Fin.ext hi0).symm
  obtain rfl : bh = bh' := (Fin.ext hi1).symm
  obtain rfl : s = s' := (Fin.ext hi2).symm
  obtain rfl : d = d' := (Fin.ext hi3).symm
  rw [pay1_apply]
  show _ = ∑ j : Fin 64, Spec.weight Q K n bh s j * Vv (ix4 n bh j d)
  simp only [Spec.weight, Spec.score, h0, h1, h2]

/-- What point t of the attention step writes back is the slice [t, :, :, :] of the attention output. -/
theorem flushed1_eq (c : Dev nD) (t : Fin cfg1.N) :
    (Gen.dat1 V c).flushed 3 t = ((cfg1.win 3).blk t).view.read (Elt Ideal) (Spec.attn (V c main_v35) (V c main_v53) (V c main_v55)) := by
  show (cfg1.win 3).cut (grid1.coords t) ((Gen.dat1 V c).after 3 t) = _
  rw [Gen.after1_3]
  unfold Gen.out1_3
  rw [View.canon_unit_zero hz4]
  simp only [View.ld_unit_zero (S := S1x32x128x64) hz4, View.ld_unit_zero (S := S1x32x64x64) hz4]
  obtain ⟨e0, e1, e2, e3⟩ := idx1_3 t
  have hN : cfg1.N = 64 := Gen.N_1
  have ht : t.val < 64 := by have := t.isLt; omega
  funext j
  have hj0 : (j 0).val < 1 := (j 0).isLt
  show Gen.k1_pay1 (F := Ideal) (Gen.iblk1 V c 0 t) (Gen.iblk1 V c 1 t) (Gen.iblk1 V c 2 t) j
    = Spec.attn (V c main_v35) (V c main_v53) (V c main_v55) (((cfg1.win 3).blk t).view.emb j)
  refine point1 (Gen.iblk1 V c 0 t) (Gen.iblk1 V c 1 t) (Gen.iblk1 V c 2 t) (V c main_v35) (V c main_v53) (V c main_v55) ⟨t.val, ht⟩
    (fun bh s d => iblk1_0_apply V c t (ix4 (0 : Fin 1) bh s d) _ rfl rfl rfl rfl)
    (fun bh j d => iblk1_1_apply V c t (ix4 (0 : Fin 1) bh j d) _ rfl rfl rfl rfl)
    (fun bh j d => iblk1_2_apply V c t (ix4 (0 : Fin 1) bh j d) _ rfl rfl rfl rfl) j _ ?_ ?_ ?_ ?_
  · show win1_3.index t 0 * 1 + 1 * (j 0).val = t.val; rw [e0]; omega
  · show win1_3.index t 1 * 32 + 1 * (j 1).val = (j 1).val; rw [e1]; omega
  · show win1_3.index t 2 * 128 + 1 * (j 2).val = (j 2).val; rw [e2]; omega
  · show win1_3.index t 3 * 64 + 1 * (j 3).val = (j 3).val; rw [e3]; omega

/-- An index of the attention output is in point t's block iff each coordinate is in the block's range. -/
theorem mem_blk1 (t : Fin cfg1.N) (i : S64x32x128x64.Idx) :
    i ∈ ((cfg1.win 3).blk t).view.set ↔ ∀ a : Fin 4, win1_3.index t a * S1x32x128x64.size a ≤ (i a).val ∧ (i a).val < win1_3.index t a * S1x32x128x64.size a + S1x32x128x64.size a := by
  show i ∈ ((View.whole main_v56).slice (win1_3.rect t)).set ↔ _
  rw [View.set_slice_whole, Rect.mem_set_unit]
  exact Iff.rfl

/-- Entry (n, …) of the attention output lies in the block of point n. -/
theorem cover1 (i : S64x32x128x64.Idx) :
    ∃ t : Fin cfg1.N, (cfg1.win 3).flush t = true ∧ i ∈ ((cfg1.win 3).blk t).view.set := by
  have hi0 : (i 0).val < 64 := (i 0).isLt
  have hi1 : (i 1).val < 32 := (i 1).isLt
  have hi2 : (i 2).val < 128 := (i 2).isLt
  have hi3 : (i 3).val < 64 := (i 3).isLt
  have hN : cfg1.N = 64 := Gen.N_1
  refine ⟨⟨(i 0).val, by omega⟩, Gen.flush1_3 _, ?_⟩
  obtain ⟨e0, e1, e2, e3⟩ := idx1_3 ⟨(i 0).val, by omega⟩
  rw [mem_blk1]
  intro a
  match a with
  | ⟨0, _⟩ => show win1_3.index _ 0 * 1 ≤ (i 0).val ∧ (i 0).val < win1_3.index _ 0 * 1 + 1; rw [e0]; show (i 0).val * 1 ≤ (i 0).val ∧ (i 0).val < (i 0).val * 1 + 1; omega
  | ⟨1, _⟩ => show win1_3.index _ 1 * 32 ≤ (i 1).val ∧ (i 1).val < win1_3.index _ 1 * 32 + 32; rw [e1]; omega
  | ⟨2, _⟩ => show win1_3.index _ 2 * 128 ≤ (i 2).val ∧ (i 2).val < win1_3.index _ 2 * 128 + 128; rw [e2]; omega
  | ⟨3, _⟩ => show win1_3.index _ 3 * 64 ≤ (i 3).val ∧ (i 3).val < win1_3.index _ 3 * 64 + 64; rw [e3]; omega

/-- THE ATTENTION STEP'S RESULT: the attention output of its three operands as the region finds them. -/
theorem region1 (c : Dev nD) :
    (Gen.dat1 (F := Ideal) V c).arrAt 3 cfg1.N = Spec.attn (V c main_v35) (V c main_v53) (V c main_v55) :=
  (Gen.dat1 V c).arrAt_eq_of_cover 3 (Spec.attn (V c main_v35) (V c main_v53) (V c main_v55)) (fun t _ => flushed1_eq V c t) cover1

end Cert.KernelIdeal.RegionValue

end
-- ==== Proof.Region2Value.lean ====
/-
  The output projection's result array, for any contents its region is entered with.

  The region runs over 16 grid points; point t loads rows 1024 t … 1024 t + 1023 of the [16384, 1024] left operand and
  the whole [1024, 1024] right operand, multiplies the two blocks, and writes the product back as rows 1024 t … of the
  result.  A block product is the same sum over k as the corresponding entries of the whole product (`rowsPoint`), so
  what each point writes back is its block of `Spec.matProd`; row r lies in the block of point r / 1024, so the 16
  blocks cover the result, which therefore ends holding the whole product.
-/
import proofs.«144823_j58926951301482_2_alg».proof.Proof.RegionDot
import proofs.«144823_j58926951301482_2_alg».proof.Proof.Gen.KernelIdeal.Frame

noncomputable section

open scoped BigOperators

namespace Cert.KernelIdeal.RegionValue

open Cert.KernelIdeal Cert.KernelIdeal.Facts₀ Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The output projection: from blocks to the array -/

/-- The output projection's index maps over its 16 grid points: point t takes row block t of the left operand and of
    the result, and the whole right operand. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Block t of the left operand is its rows 1024 t … 1024 t + 1023. -/
theorem iblk2_0_apply (c : Dev nD) (t : Fin cfg2.N) (y : S1024x1024.Idx) (k : S16384x1024.Idx)
    (hk0 : (k 0).val = t.val * 1024 + (y 0).val) (hk1 : (k 1).val = (y 1).val) :
    (Gen.iblk2 V c 0 t : Vec Ideal S1024x1024 .bf16) y = (V c main_v59 : S16384x1024.Idx → EReal) k := by
  obtain ⟨e0, e1, -⟩ := idx2 t
  unfold Gen.iblk2
  rw [View.read_apply]
  show V c main_v59 _ = V c main_v59 _
  refine congrArg _ (funext fun a => Fin.ext ?_)
  match a with
  | ⟨0, _⟩ => show win2_0.index t 0 * 1024 + 1 * (y 0).val = (k 0).val; rw [e0, hk0]; omega
  | ⟨1, _⟩ => show win2_0.index t 1 * 1024 + 1 * (y 1).val = (k 1).val; rw [e1, hk1]; omega

/-- The right operand's block is the whole array at every point. -/
theorem iblk2_1_apply (c : Dev nD) (t : Fin cfg2.N) (y : S1024x1024.Idx) :
    (Gen.iblk2 V c 1 t : Vec Ideal S1024x1024 .bf16) y = (V c main_v12 : S1024x1024.Idx → EReal) y := by
  obtain ⟨-, -, e2, e3, -⟩ := idx2 t
  unfold Gen.iblk2
  rw [View.read_apply]
  show V c main_v12 _ = V c main_v12 _
  refine congrArg _ (funext fun a => Fin.ext ?_)
  match a with
  | ⟨0, _⟩ => show win2_1.index t 0 * 1024 + 1 * (y 0).val = (y 0).val; rw [e2]; omega
  | ⟨1, _⟩ => show win2_1.index t 1 * 1024 + 1 * (y 1).val = (y 1).val; rw [e3]; omega

/-- What point t of the output projection writes back is block t of the product. -/
theorem flushed2_eq (c : Dev nD) (t : Fin cfg2.N) :
    (Gen.dat2 V c).flushed 2 t = ((cfg2.win 2).blk t).view.read (Elt Ideal) (Spec.matProd (V c main_v59) (V c main_v12)) := by
  show (cfg2.win 2).cut (grid2.coords t) ((Gen.dat2 V c).after 2 t) = _
  rw [Gen.after2_2]
  unfold Gen.out2_2
  rw [View.canon_unit_zero hz2]
  simp only [View.ld_unit_zero (S := S1024x1024) hz2]
  obtain ⟨-, -, -, -, e4, e5⟩ := idx2 t
  have hN : cfg2.N = 16 := Gen.N_2
  have ht : t.val < 16 := by have := t.isLt; omega
  funext j
  show Gen.k2_pay1 (F := Ideal) (Gen.iblk2 V c 0 t) (Gen.iblk2 V c 1 t) j
    = Spec.matProd (V c main_v59) (V c main_v12) (((cfg2.win 2).blk t).view.emb j)
  refine rowsPoint _ (Gen.iblk2 V c 0 t) (Gen.iblk2 V c 1 t) (pay2_apply (Gen.iblk2 V c 0 t) (Gen.iblk2 V c 1 t)) (V c main_v59) (V c main_v12) t.val ht
    (fun p k => iblk2_0_apply V c t (ix2 p k) _ rfl rfl) (fun y => iblk2_1_apply V c t y) j _ ?_ ?_
  · show win2_2.index t 0 * 1024 + 1 * (j 0).val = t.val * 1024 + (j 0).val; rw [e4]; omega
  · show win2_2.index t 1 * 1024 + 1 * (j 1).val = (j 1).val; rw [e5]; omega

/-- An index of the result is in point t's block iff each coordinate is in the block's range. -/
theorem mem_blk2 (t : Fin cfg2.N) (i : S16384x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v60).slice (win2_2.rect t)).set ↔ _
  rw [View.set_slice_whole, Rect.mem_set_unit]
  exact Iff.rfl

/-- Row r of the result lies in the block of point r / 1024. -/
theorem cover2 (i : S16384x1024.Idx) :
    ∃ t : Fin cfg2.N, (cfg2.win 2).flush t = true ∧ i ∈ ((cfg2.win 2).blk t).view.set := by
  have hi0 : (i 0).val < 16384 := (i 0).isLt
  have hi1 : (i 1).val < 1024 := (i 1).isLt
  have hN : cfg2.N = 16 := Gen.N_2
  refine ⟨⟨(i 0).val / 1024, by omega⟩, Gen.flush2_2 _, ?_⟩
  obtain ⟨-, -, -, -, e4, e5⟩ := idx2 ⟨(i 0).val / 1024, by omega⟩
  rw [mem_blk2]
  intro a
  match a with
  | ⟨0, _⟩ => show win2_2.index _ 0 * 1024 ≤ (i 0).val ∧ (i 0).val < win2_2.index _ 0 * 1024 + 1024; rw [e4]; show (i 0).val / 1024 * 1024 ≤ (i 0).val ∧ (i 0).val < (i 0).val / 1024 * 1024 + 1024; omega
  | ⟨1, _⟩ => show win2_2.index _ 1 * 1024 ≤ (i 1).val ∧ (i 1).val < win2_2.index _ 1 * 1024 + 1024; rw [e5]; omega

/-- THE OUTPUT PROJECTION'S RESULT: the product of its two operands as the region finds them. -/
theorem region2 (c : Dev nD) :
    (Gen.dat2 (F := Ideal) V c).arrAt 2 cfg2.N = Spec.matProd (V c main_v59) (V c main_v12) :=
  (Gen.dat2 V c).arrAt_eq_of_cover 2 (Spec.matProd (V c main_v59) (V c main_v12)) (fun t _ => flushed2_eq V c t) cover2

end Cert.KernelIdeal.RegionValue

end
-- ==== Proof.RegionValue.lean ====
/-
  The three array computations of the kernel program, each as one function of the arrays its region is entered with:
  the three projections are `Spec.matProd` of the input rows with each weight, the attention step is `Spec.attn` of its
  query, key and value arrays, and the output projection is `Spec.matProd` of the attention rows with the output
  weight (`region0_q`, `region0_k`, `region0_v`, `region1`, `region2`).
-/
import proofs.«144823_j58926951301482_2_alg».proof.Proof.Region0Value
import proofs.«144823_j58926951301482_2_alg».proof.Proof.Region1Value
import proofs.«144823_j58926951301482_2_alg».proof.Proof.Region2Value
-- ==== Proof.KernelValue.lean ====
/-
  The kernel program's result buffer, end to end: each array computation's output is the specification's function of
  its operands' contents (the blocks-to-array lemmas), each operand's contents the layout term of the stretch before it
  (the fold lemmas); composed from the launch memory they give the kernel's term of the four arguments.
-/
import proofs.«144823_j58926951301482_2_alg».proof.Proof.KernelFold
import proofs.«144823_j58926951301482_2_alg».proof.Proof.RegionValue

set_option maxRecDepth 16384

noncomputable section

namespace Cert.KernelIdeal.Fold

open Cert.KernelIdeal Cert.KernelIdeal.Gen Cert.KernelIdeal.Facts₀
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- After the first computation its three outputs hold the three projections of the input rows. -/
theorem W2_q : W2 m ρ c (Proc.devRef .tc main_v14_0)
    = Term.qRows (m ((c : Thread nD τ).loc main_arg0)) (m ((c : Thread nD τ).loc main_arg1)) := by
  refine (W2_arr m ρ c 4).trans ((RegionValue.region0_q (V1 m ρ) c).trans ?_)
  show Spec.matProd (W1 m ρ c (Proc.devRef .tc main_v13)) (W1 m ρ c (Proc.devRef .tc main_v6)) = _
  rw [W1_v13, W1_v6]; rfl

theorem W2_k : W2 m ρ c (Proc.devRef .tc main_v14_1)
    = Term.kRows (m ((c : Thread nD τ).loc main_arg0)) (m ((c : Thread nD τ).loc main_arg1)) := by
  refine (W2_arr m ρ c 5).trans ((RegionValue.region0_k (V1 m ρ) c).trans ?_)
  show Spec.matProd (W1 m ρ c (Proc.devRef .tc main_v13)) (W1 m ρ c (Proc.devRef .tc main_v8)) = _
  rw [W1_v13, W1_v8]; rfl

theorem W2_v : W2 m ρ c (Proc.devRef .tc main_v14_2)
    = Term.vRows (m ((c : Thread nD τ).loc main_arg0)) (m ((c : Thread nD τ).loc main_arg1)) := by
  refine (W2_arr m ρ c 6).trans ((RegionValue.region0_v (V1 m ρ) c).trans ?_)
  show Spec.matProd (W1 m ρ c (Proc.devRef .tc main_v13)) (W1 m ρ c (Proc.devRef .tc main_v10)) = _
  rw [W1_v13, W1_v10]; rfl

/-- After the attention step its output holds the attention of the re-laid projections. -/
theorem W4_v56 : W4 m ρ c (Proc.devRef .tc main_v56)
    = Term.attnOut (m ((c : Thread nD τ).loc main_arg0)) (m ((c : Thread nD τ).loc main_arg1)) (m ((c : Thread nD τ).loc main_arg3)) := by
  refine (W4_arr m ρ c 3).trans ((RegionValue.region1 (V3 m ρ) c).trans ?_)
  show Spec.attn (W3 m ρ c (Proc.devRef .tc main_v35)) (W3 m ρ c (Proc.devRef .tc main_v53)) (W3 m ρ c (Proc.devRef .tc main_v55)) = _
  rw [W3_v35, W3_v53, W3_v55, W2_q, W2_k, W2_v, W2_arg3]; rfl

/-- The program's result buffer ends at the kernel's term of the four arguments. -/
theorem result_eq : W7 m ρ c (Proc.devRef .tc main_v61)
    = Term.kernelValue (m ((c : Thread nD τ).loc main_arg0)) (m ((c : Thread nD τ).loc main_arg1))
        (m ((c : Thread nD τ).loc main_arg2)) (m ((c : Thread nD τ).loc main_arg3)) := by
  rw [W7_v61]
  refine congrArg Term.out3 ?_
  refine (W6_arr m ρ c 2).trans ((RegionValue.region2 (V5 m ρ) c).trans ?_)
  show Spec.matProd (W5 m ρ c (Proc.devRef .tc main_v59)) (W5 m ρ c (Proc.devRef .tc main_v12)) = _
  rw [W5_v59, W5_v12, W4_v56]

end Cert.KernelIdeal.Fold

end
-- ==== Proof.KernelRead.lean ====
/-
  The kernel program's layout stretches read at coordinates: which entry of its operand each entry of a re-laid
  array is.  Rows are numbered r = 8192 b + 128 n + s, columns c = 64 h + d, head slots bh = 16 b + h.
-/
import proofs.«144823_j58926951301482_2_alg».proof.Proof.KernelTerm
import Idealize.ShloMosaic.Lib.Pipeline.Value
import Idealize.ShloMosaic.Lib.ValueIdx

noncomputable section

namespace Cert.KernelIdeal.Term

open Cert.KernelIdeal Cert.KernelIdeal.Facts₀ Cert.KernelIdeal.Spec Idealize.ShloMosaic Idealize.ShloMosaic.TcCoe
open Idealize.ShloMosaic.ValueIdx

/-- The 1/8 the query weight is scaled by, as the extended real its f32 word denotes. -/
def c0 : EReal := Ideal.ofBits .f32 0x3E000000#32

/-- The row of the key table the gathers read for key slot j of segment n: the start index read as a signed
    integer and clamped into [0, 8191]. -/
def keyPos (hm : (⟨S8192, .i32⟩ : BufTy).Contents (Elt Ideal)) (n j : Fin 64) : Fin 8192 :=
  ⟨min (keyStart hm (ix3 n j (0 : Fin 1))).toInt.toNat 8191, by omega⟩

theorem rows_apply (X : (⟨S2x8192x1024, .f32⟩ : BufTy).Contents (Elt Ideal)) (r : Fin 16384) (k : Fin 1024) :
    rows X (ix2 r k) = X (ix3 (⟨r.val / 8192, by have := r.isLt; omega⟩ : Fin 2) (⟨r.val % 8192, by omega⟩ : Fin 8192) k) := by
  unfold rows
  refine shapeCast_apply X shapeCasts_S2x8192x1024_S16384x1024 (ix2 r k) _ ?_
  rewrite [Shape.rowMajor_val_three, Shape.rowMajor_val_two]
  show (r.val / 8192 * 8192 + r.val % 8192) * 1024 + k.val = r.val * 1024 + k.val
  omega

theorem wqT_apply (W : (⟨S3072x1024, .f32⟩ : BufTy).Contents (Elt Ideal)) (k e : Fin 1024) :
    wqT W (ix2 k e) = W (ix2 (⟨e.val, by have := e.isLt; omega⟩ : Fin 3072) k) * c0 := by
  unfold wqT
  show transpose S1024x1024 [1, 0]
    (mulf (F := Ideal) (extractStridedSlice S1024x1024 ![0, 0] W slices_S3072x1024_S1024x1024_0_0)
      (broadcastInDim S1024x1024 ![] bcast_S_S1024x1024 (constant (F := Ideal) S_ .f32 0x3E000000#32)))
    transposes_S1024x1024_S1024x1024_1_0 (ix2 k e) = _
  refine (transpose_apply [1, 0] _ transposes_S1024x1024_S1024x1024_1_0 (ix2 k e) (ix2 e k)
    (fun b => match b with | ⟨0, _⟩ => rfl | ⟨1, _⟩ => rfl)).trans ?_
  show extractStridedSlice S1024x1024 ![0, 0] W slices_S3072x1024_S1024x1024_0_0 (ix2 e k)
    * broadcastInDim S1024x1024 ![] bcast_S_S1024x1024 (constant (F := Ideal) S_ .f32 0x3E000000#32) (ix2 e k) = _
  refine congrArg₂ (· * ·) ?_ ?_
  · exact extractStridedSlice_apply ![0, 0] W slices_S3072x1024_S1024x1024_0_0 (ix2 e k) _ (fun a => match a with
      | ⟨0, _⟩ => by show e.val = 0 + e.val; omega
      | ⟨1, _⟩ => by show k.val = 0 + k.val; omega)
  · exact broadcastInDim_apply _ bcast_S_S1024x1024 (constant (F := Ideal) S_ .f32 0x3E000000#32) (ix2 e k) ix0 (fun a => a.elim0)

theorem wkT_apply (W : (⟨S3072x1024, .f32⟩ : BufTy).Contents (Elt Ideal)) (k e : Fin 1024) :
    wkT W (ix2 k e) = W (ix2 (⟨1024 + e.val, by have := e.isLt; omega⟩ : Fin 3072) k) := by
  unfold wkT
  show transpose S1024x1024 [1, 0] (extractStridedSlice S1024x1024 ![1024, 0] W slices_S3072x1024_S1024x1024_1024_0)
    transposes_S1024x1024_S1024x1024_1_0 (ix2 k e) = _
  refine (transpose_apply [1, 0] _ transposes_S1024x1024_S1024x1024_1_0 (ix2 k e) (ix2 e k)
    (fun b => match b with | ⟨0, _⟩ => rfl | ⟨1, _⟩ => rfl)).trans ?_
  exact extractStridedSlice_apply ![1024, 0] W slices_S3072x1024_S1024x1024_1024_0 (ix2 e k) _ (fun a => match a with
    | ⟨0, _⟩ => by show 1024 + e.val = 1024 + e.val; rfl
    | ⟨1, _⟩ => by show k.val = 0 + k.val; omega)

theorem wvT_apply (W : (⟨S3072x1024, .f32⟩ : BufTy).Contents (Elt Ideal)) (k e : Fin 1024) :
    wvT W (ix2 k e) = W (ix2 (⟨2048 + e.val, by have := e.isLt; omega⟩ : Fin 3072) k) := by
  unfold wvT
  show transpose S1024x1024 [1, 0] (extractStridedSlice S1024x1024 ![2048, 0] W slices_S3072x1024_S1024x1024_2048_0)
    transposes_S1024x1024_S1024x1024_1_0 (ix2 k e) = _
  refine (transpose_apply [1, 0] _ transposes_S1024x1024_S1024x1024_1_0 (ix2 k e) (ix2 e k)
    (fun b => match b with | ⟨0, _⟩ => rfl | ⟨1, _⟩ => rfl)).trans ?_
  exact extractStridedSlice_apply ![2048, 0] W slices_S3072x1024_S1024x1024_2048_0 (ix2 e k) _ (fun a => match a with
    | ⟨0, _⟩ => by show 2048 + e.val = 2048 + e.val; rfl
    | ⟨1, _⟩ => by show k.val = 0 + k.val; omega)

theorem woT_apply (Wo : (⟨S1024x1024, .f32⟩ : BufTy).Contents (Elt Ideal)) (k e : Fin 1024) :
    woT Wo (ix2 k e) = Wo (ix2 e k) := by
  unfold woT
  show transpose S1024x1024 [1, 0] Wo transposes_S1024x1024_S1024x1024_1_0 (ix2 k e) = _
  exact transpose_apply [1, 0] Wo transposes_S1024x1024_S1024x1024_1_0 (ix2 k e) (ix2 e k)
    (fun b => match b with | ⟨0, _⟩ => rfl | ⟨1, _⟩ => rfl)

theorem qT_apply (Qa : (⟨S16384x1024, .bf16⟩ : BufTy).Contents (Elt Ideal)) (n : Fin 64) (bh : Fin 32) (s : Fin 128) (d : Fin 64) :
    qT Qa (ix4 n bh s d)
      = Qa (ix2 (⟨bh.val / 16 * 8192 + n.val * 128 + s.val, by have := bh.isLt; have := n.isLt; have := s.isLt; omega⟩ : Fin 16384)
          (⟨bh.val % 16 * 64 + d.val, by have := d.isLt; omega⟩ : Fin 1024)) := by
  have hbh := bh.isLt
  unfold qT
  refine (shapeCast_apply _ shapeCasts_S64x2x16x128x64_S64x32x128x64 (ix4 n bh s d)
    (ix5 n (⟨bh.val / 16, by omega⟩ : Fin 2) (⟨bh.val % 16, by omega⟩ : Fin 16) s d) ?_).trans ?_
  · rewrite [Shape.rowMajor_val_five, Shape.rowMajor_val_four]
    show (((n.val * 2 + bh.val / 16) * 16 + bh.val % 16) * 128 + s.val) * 64 + d.val
      = ((n.val * 32 + bh.val) * 128 + s.val) * 64 + d.val
    omega
  refine (transpose_apply [1, 0, 3, 2, 4] _ transposes_S2x64x128x16x64_S64x2x16x128x64_1_0_3_2_4
    (ix5 n (⟨bh.val / 16, by omega⟩ : Fin 2) (⟨bh.val % 16, by omega⟩ : Fin 16) s d)
    (ix5 (⟨bh.val / 16, by omega⟩ : Fin 2) n s (⟨bh.val % 16, by omega⟩ : Fin 16) d)
    (fun b => match b with | ⟨0, _⟩ => rfl | ⟨1, _⟩ => rfl | ⟨2, _⟩ => rfl | ⟨3, _⟩ => rfl | ⟨4, _⟩ => rfl)).trans ?_
  refine shapeCast_apply Qa shapeCasts_S16384x1024_S2x64x128x16x64
    (ix5 (⟨bh.val / 16, by omega⟩ : Fin 2) n s (⟨bh.val % 16, by omega⟩ : Fin 16) d) _ ?_
  rewrite [Shape.rowMajor_val_two, Shape.rowMajor_val_five]
  show (bh.val / 16 * 8192 + n.val * 128 + s.val) * 1024 + (bh.val % 16 * 64 + d.val)
    = ((((bh.val / 16) * 64 + n.val) * 128 + s.val) * 16 + bh.val % 16) * 64 + d.val
  omega

/-! ## The gather of key rows read at an index

The gather's operand is [2, 8192, 16, 64], its start indices [64, 64, 1] and its result [2, 64, 64, 16, 64]: operand
axes 0, 2, 3 are offset axes (result axes 0, 3, 4, taken whole), operand axis 1 is collapsed and is the one the start
index names; result axes 1, 2 are the batch axes and run over the start-index array's first two axes. -/

/-- Operand axis 0 is an offset axis: the operand index carries the result's coordinate 0 there. -/
theorem gatherRows_idx0 {w : Nat} (y : S2x64x64x16x64.Idx) (idx : IVec S64x64x1 w) :
    (gather_S2x8192x16x64_S64x64x1_S2x64x64x16x64_034_1_n_n_1_2_211664.operandIdx y idx 0).val = (y 0).val := by
  show gather_S2x8192x16x64_S64x64x1_S2x64x64x16x64_034_1_n_n_1_2_211664.start y idx 0 + gather_S2x8192x16x64_S64x64x1_S2x64x64x16x64_034_1_n_n_1_2_211664.batchCoord y 0 + gather_S2x8192x16x64_S64x64x1_S2x64x64x16x64_034_1_n_n_1_2_211664.offCoord y 0 = _
  rw [GatherDims.batchCoord_eq_zero _ _ _ List.not_mem_nil, Nat.add_zero]
  unfold GatherDims.start GatherDims.offCoord
  rw [dif_neg (show ¬(0 : Fin S2x8192x16x64.rank) ∈ gather_S2x8192x16x64_S64x64x1_S2x64x64x16x64_034_1_n_n_1_2_211664.startIndexMap by decide),
    dif_pos (show (0 : Fin S2x8192x16x64.rank) ∈ gather_S2x8192x16x64_S64x64x1_S2x64x64x16x64_034_1_n_n_1_2_211664.sKept by decide)]
  refine (Nat.zero_add _).trans ?_
  rfl

/-- Operand axis 2 is an offset axis: the operand index carries the result's coordinate 3 there. -/
theorem gatherRows_idx2 {w : Nat} (y : S2x64x64x16x64.Idx) (idx : IVec S64x64x1 w) :
    (gather_S2x8192x16x64_S64x64x1_S2x64x64x16x64_034_1_n_n_1_2_211664.operandIdx y idx 2).val = (y 3).val := by
  show gather_S2x8192x16x64_S64x64x1_S2x64x64x16x64_034_1_n_n_1_2_211664.start y idx 2 + gather_S2x8192x16x64_S64x64x1_S2x64x64x16x64_034_1_n_n_1_2_211664.batchCoord y 2 + gather_S2x8192x16x64_S64x64x1_S2x64x64x16x64_034_1_n_n_1_2_211664.offCoord y 2 = _
  rw [GatherDims.batchCoord_eq_zero _ _ _ List.not_mem_nil, Nat.add_zero]
  unfold GatherDims.start GatherDims.offCoord
  rw [dif_neg (show ¬(2 : Fin S2x8192x16x64.rank) ∈ gather_S2x8192x16x64_S64x64x1_S2x64x64x16x64_034_1_n_n_1_2_211664.startIndexMap by decide),
    dif_pos (show (2 : Fin S2x8192x16x64.rank) ∈ gather_S2x8192x16x64_S64x64x1_S2x64x64x16x64_034_1_n_n_1_2_211664.sKept by decide)]
  refine (Nat.zero_add _).trans ?_
  rfl

/-- Operand axis 3 is an offset axis: the operand index carries the result's coordinate 4 there. -/
theorem gatherRows_idx3 {w : Nat} (y : S2x64x64x16x64.Idx) (idx : IVec S64x64x1 w) :
    (gather_S2x8192x16x64_S64x64x1_S2x64x64x16x64_034_1_n_n_1_2_211664.operandIdx y idx 3).val = (y 4).val := by
  show gather_S2x8192x16x64_S64x64x1_S2x64x64x16x64_034_1_n_n_1_2_211664.start y idx 3 + gather_S2x8192x16x64_S64x64x1_S2x64x64x16x64_034_1_n_n_1_2_211664.batchCoord y 3 + gather_S2x8192x16x64_S64x64x1_S2x64x64x16x64_034_1_n_n_1_2_211664.offCoord y 3 = _
  rw [GatherDims.batchCoord_eq_zero _ _ _ List.not_mem_nil, Nat.add_zero]
  unfold GatherDims.start GatherDims.offCoord
  rw [dif_neg (show ¬(3 : Fin S2x8192x16x64.rank) ∈ gather_S2x8192x16x64_S64x64x1_S2x64x64x16x64_034_1_n_n_1_2_211664.startIndexMap by decide),
    dif_pos (show (3 : Fin S2x8192x16x64.rank) ∈ gather_S2x8192x16x64_S64x64x1_S2x64x64x16x64_034_1_n_n_1_2_211664.sKept by decide)]
  refine (Nat.zero_add _).trans ?_
  rfl

/-- Operand axis 1 is the collapsed axis the start index names: the operand index carries the start index read at
    the result's batch coordinates, as a signed integer clamped into [0, 8191]. -/
theorem gatherRows_idx1 {w : Nat} (idx : IVec S64x64x1 w) (b : Fin 2) (n j : Fin 64) (h : Fin 16) (d : Fin 64) :
    (gather_S2x8192x16x64_S64x64x1_S2x64x64x16x64_034_1_n_n_1_2_211664.operandIdx (ix5 b n j h d) idx 1).val = min (idx (ix3 n j (0 : Fin 1))).toInt.toNat 8191 := by
  show gather_S2x8192x16x64_S64x64x1_S2x64x64x16x64_034_1_n_n_1_2_211664.start (ix5 b n j h d) idx 1 + gather_S2x8192x16x64_S64x64x1_S2x64x64x16x64_034_1_n_n_1_2_211664.batchCoord (ix5 b n j h d) 1 + gather_S2x8192x16x64_S64x64x1_S2x64x64x16x64_034_1_n_n_1_2_211664.offCoord (ix5 b n j h d) 1 = _
  rw [GatherDims.batchCoord_eq_zero _ _ _ List.not_mem_nil,
    GatherDims.offCoord_eq_zero _ _ _ (fun hm => ((GatherDims.mem_sKept _ _).mp hm).1 (List.mem_singleton.mpr rfl))]
  simp only [Nat.add_zero]
  unfold GatherDims.start
  rw [dif_pos (show (1 : Fin S2x8192x16x64.rank) ∈ gather_S2x8192x16x64_S64x64x1_S2x64x64x16x64_034_1_n_n_1_2_211664.startIndexMap from List.mem_singleton.mpr rfl)]
  have hsi : gather_S2x8192x16x64_S64x64x1_S2x64x64x16x64_034_1_n_n_1_2_211664.siIdx (ix5 b n j h d)
      ⟨List.idxOf (1 : Fin S2x8192x16x64.rank) gather_S2x8192x16x64_S64x64x1_S2x64x64x16x64_034_1_n_n_1_2_211664.startIndexMap,
        List.idxOf_lt_length_iff.2 (List.mem_singleton.mpr rfl)⟩ = ix3 n j (0 : Fin 1) := by
    funext c; refine Fin.ext ?_
    match c with
    | ⟨0, _⟩ => rfl
    | ⟨1, _⟩ => rfl
    | ⟨2, _⟩ => rfl
  rw [hsi]
  rfl

/-- The gather read at (b, n, j, h, d): the operand at (b, p, h, d), where p is the start index at (n, j, 0) read as a
    signed integer and clamped into [0, 8191]. -/
theorem gatherRows_apply {α : Type} {w : Nat} (x : S2x8192x16x64.Idx → α) (idx : IVec S64x64x1 w)
    (b : Fin 2) (n j : Fin 64) (h : Fin 16) (d : Fin 64) :
    Host.gather gather_S2x8192x16x64_S64x64x1_S2x64x64x16x64_034_1_n_n_1_2_211664 x idx (ix5 b n j h d)
      = x (ix4 b (⟨min (idx (ix3 n j (0 : Fin 1))).toInt.toNat 8191, by omega⟩ : Fin 8192) h d) := by
  unfold Host.gather
  refine congrArg x (funext fun a => Fin.ext ?_)
  match a with
  | ⟨0, _⟩ => exact gatherRows_idx0 (ix5 b n j h d) idx
  | ⟨1, _⟩ => exact gatherRows_idx1 idx b n j h d
  | ⟨2, _⟩ => exact gatherRows_idx2 (ix5 b n j h d) idx
  | ⟨3, _⟩ => exact gatherRows_idx3 (ix5 b n j h d) idx

theorem kT_apply (Ka : (⟨S16384x1024, .bf16⟩ : BufTy).Contents (Elt Ideal)) (hm : (⟨S8192, .i32⟩ : BufTy).Contents (Elt Ideal))
    (n : Fin 64) (bh : Fin 32) (j : Fin 64) (d : Fin 64) :
    kT Ka hm (ix4 n bh j d)
      = Ka (ix2 (⟨bh.val / 16 * 8192 + (keyPos hm n j).val, by have := bh.isLt; have := (keyPos hm n j).isLt; omega⟩ : Fin 16384)
          (⟨bh.val % 16 * 64 + d.val, by have := d.isLt; omega⟩ : Fin 1024)) := by
  have hbh := bh.isLt
  unfold kT
  refine (shapeCast_apply _ shapeCasts_S64x2x16x64x64_S64x32x64x64 (ix4 n bh j d)
    (ix5 n (⟨bh.val / 16, by omega⟩ : Fin 2) (⟨bh.val % 16, by omega⟩ : Fin 16) j d) ?_).trans ?_
  · rewrite [Shape.rowMajor_val_five, Shape.rowMajor_val_four]
    show (((n.val * 2 + bh.val / 16) * 16 + bh.val % 16) * 64 + j.val) * 64 + d.val
      = ((n.val * 32 + bh.val) * 64 + j.val) * 64 + d.val
    omega
  refine (transpose_apply [1, 0, 3, 2, 4] _ transposes_S2x64x64x16x64_S64x2x16x64x64_1_0_3_2_4
    (ix5 n (⟨bh.val / 16, by omega⟩ : Fin 2) (⟨bh.val % 16, by omega⟩ : Fin 16) j d)
    (ix5 (⟨bh.val / 16, by omega⟩ : Fin 2) n j (⟨bh.val % 16, by omega⟩ : Fin 16) d)
    (fun b => match b with | ⟨0, _⟩ => rfl | ⟨1, _⟩ => rfl | ⟨2, _⟩ => rfl | ⟨3, _⟩ => rfl | ⟨4, _⟩ => rfl)).trans ?_
  refine (gatherRows_apply (w := 32) _ (keyStart hm) (⟨bh.val / 16, by omega⟩ : Fin 2) n j (⟨bh.val % 16, by omega⟩ : Fin 16) d).trans ?_
  refine shapeCast_apply Ka shapeCasts_S16384x1024_S2x8192x16x64 _ _ ?_
  rewrite [Shape.rowMajor_val_two, Shape.rowMajor_val_four]
  show (bh.val / 16 * 8192 + (keyPos hm n j).val) * 1024 + (bh.val % 16 * 64 + d.val)
    = (((bh.val / 16) * 8192 + (keyPos hm n j).val) * 16 + bh.val % 16) * 64 + d.val
  omega

theorem aoT_apply (O : (⟨S64x32x128x64, .bf16⟩ : BufTy).Contents (Elt Ideal)) (r : Fin 16384) (c : Fin 1024) :
    aoT O (ix2 r c)
      = O (ix4 (⟨r.val % 8192 / 128, by omega⟩ : Fin 64) (⟨r.val / 8192 * 16 + c.val / 64, by have := r.isLt; have := c.isLt; omega⟩ : Fin 32)
          (⟨r.val % 128, by omega⟩ : Fin 128) (⟨c.val % 64, by omega⟩ : Fin 64)) := by
  have hr := r.isLt
  have hc := c.isLt
  unfold aoT
  refine (shapeCast_apply _ shapeCasts_S2x64x128x16x64_S16384x1024 (ix2 r c)
    (ix5 (⟨r.val / 8192, by omega⟩ : Fin 2) (⟨r.val % 8192 / 128, by omega⟩ : Fin 64) (⟨r.val % 128, by omega⟩ : Fin 128)
      (⟨c.val / 64, by omega⟩ : Fin 16) (⟨c.val % 64, by omega⟩ : Fin 64)) ?_).trans ?_
  · rewrite [Shape.rowMajor_val_five, Shape.rowMajor_val_two]
    show ((((r.val / 8192) * 64 + r.val % 8192 / 128) * 128 + r.val % 128) * 16 + c.val / 64) * 64 + c.val % 64
      = r.val * 1024 + c.val
    omega
  refine (transpose_apply [1, 0, 3, 2, 4] _ transposes_S64x2x16x128x64_S2x64x128x16x64_1_0_3_2_4
    (ix5 (⟨r.val / 8192, by omega⟩ : Fin 2) (⟨r.val % 8192 / 128, by omega⟩ : Fin 64) (⟨r.val % 128, by omega⟩ : Fin 128)
      (⟨c.val / 64, by omega⟩ : Fin 16) (⟨c.val % 64, by omega⟩ : Fin 64))
    (ix5 (⟨r.val % 8192 / 128, by omega⟩ : Fin 64) (⟨r.val / 8192, by omega⟩ : Fin 2) (⟨c.val / 64, by omega⟩ : Fin 16)
      (⟨r.val % 128, by omega⟩ : Fin 128) (⟨c.val % 64, by omega⟩ : Fin 64))
    (fun b => match b with | ⟨0, _⟩ => rfl | ⟨1, _⟩ => rfl | ⟨2, _⟩ => rfl | ⟨3, _⟩ => rfl | ⟨4, _⟩ => rfl)).trans ?_
  refine shapeCast_apply O shapeCasts_S64x32x128x64_S64x2x16x128x64
    (ix5 (⟨r.val % 8192 / 128, by omega⟩ : Fin 64) (⟨r.val / 8192, by omega⟩ : Fin 2) (⟨c.val / 64, by omega⟩ : Fin 16)
      (⟨r.val % 128, by omega⟩ : Fin 128) (⟨c.val % 64, by omega⟩ : Fin 64)) _ ?_
  rewrite [Shape.rowMajor_val_four, Shape.rowMajor_val_five]
  show (((r.val % 8192 / 128) * 32 + (r.val / 8192 * 16 + c.val / 64)) * 128 + r.val % 128) * 64 + c.val % 64
    = ((((r.val % 8192 / 128) * 2 + r.val / 8192) * 16 + c.val / 64) * 128 + r.val % 128) * 64 + c.val % 64
  omega

theorem out3_apply (Y : (⟨S16384x1024, .f32⟩ : BufTy).Contents (Elt Ideal)) (b : Fin 2) (m : Fin 8192) (e : Fin 1024) :
    out3 Y (ix3 b m e) = Y (ix2 (⟨b.val * 8192 + m.val, by have := b.isLt; have := m.isLt; omega⟩ : Fin 16384) e) := by
  unfold out3
  refine shapeCast_apply Y shapeCasts_S16384x1024_S2x8192x1024 (ix3 b m e) _ ?_
  rewrite [Shape.rowMajor_val_two, Shape.rowMajor_val_three]
  show (b.val * 8192 + m.val) * 1024 + e.val = (b.val * 8192 + m.val) * 1024 + e.val
  rfl

end Cert.KernelIdeal.Term

end
-- ==== Proof.Algebra.lean ====
/-
  Arithmetic on the extended reals that holds for finite values.

  On the extended reals a product does not distribute over a sum, and a common factor cannot be moved across
  a sum, once an infinity is among the values.  For values that are real numbers both hold, because the
  computation can be done in the reals.  This module states what the attention block needs:
  * finite sums, products, exponentials and quotients (by a nonzero real) of real values are real values;
  * a sum of products times a real constant is the sum with the constant moved onto the second factors;
  * a sum of quotients by one nonzero real divisor, each times a value, is the quotient of the sum.
-/
import Idealize.ShloMosaic.PureOps.Ideal
import Idealize.ShloMosaic.PureOps.Ideal.Laws

noncomputable section

open scoped BigOperators

namespace Cert.KernelIdeal.Alg

open Idealize.ShloMosaic

/-- An extended real that is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsR.sum {ι : Type*} (s : Finset ι) {f : ι → EReal} (hf : ∀ k, IsR (f k)) : IsR (∑ k ∈ s, f k) := by
  choose g hg using hf
  exact ⟨∑ k ∈ s, g k, by rw [coe_sum]; exact Finset.sum_congr rfl fun k _ => hg k⟩

/-- The exponential of a real value is a positive real. -/
theorem exp_pos {x : EReal} (hx : IsR x) : ∃ r : ℝ, 0 < r ∧ Ideal.exp x = (r : EReal) := by
  obtain ⟨a, rfl⟩ := hx; exact ⟨Real.exp a, Real.exp_pos a, rfl⟩

theorem IsR.exp {x : EReal} (hx : IsR x) : IsR (Ideal.exp x) := by
  obtain ⟨r, _, h⟩ := exp_pos hx; exact ⟨r, h⟩

/-- A quotient of a real value by a nonzero real is a real value. -/
theorem IsR.div {x D : EReal} (hx : IsR x) (hD : ∃ r : ℝ, r ≠ 0 ∧ D = (r : EReal)) : IsR (Ideal.div x D) := by
  obtain ⟨a, rfl⟩ := hx; obtain ⟨d, hd, rfl⟩ := hD
  rw [Ideal.div_coe hd]; exact (IsR.coe a).mul (IsR.coe _)

/-- A sum of products of real values, times a real constant: the constant may be moved onto the second factors. -/
theorem sum_mul_const {ι : Type*} (s : Finset ι) {x w : ι → EReal} {c : EReal}
    (hx : ∀ k, IsR (x k)) (hw : ∀ k, IsR (w k)) (hc : IsR c) :
    (∑ k ∈ s, x k * w k) * c = ∑ k ∈ s, x k * (w k * c) := by
  choose xr hxr using hx
  choose wr hwr using hw
  obtain ⟨cr, rfl⟩ := hc
  have e1 : ∀ k, x k * w k = ((xr k * wr k : ℝ) : EReal) := fun k => by rw [hxr k, hwr k, EReal.coe_mul]
  have e2 : ∀ k, x k * (w k * (cr : EReal)) = ((xr k * (wr k * cr) : ℝ) : EReal) := fun k => by
    rw [hxr k, hwr k, EReal.coe_mul, EReal.coe_mul]
  rw [Finset.sum_congr rfl fun k _ => e1 k, Finset.sum_congr rfl fun k _ => e2 k, ← coe_sum, ← coe_sum, ← EReal.coe_mul,
    Finset.sum_mul]
  exact congrArg _ (Finset.sum_congr rfl fun k _ => by ring)

/-- A sum of quotients by one nonzero real divisor, each times a value, is the quotient of the sum of products. -/
theorem sum_div_mul {ι : Type*} (s : Finset ι) {e v : ι → EReal} {D : EReal}
    (he : ∀ j, IsR (e j)) (hv : ∀ j, IsR (v j)) (hD : ∃ r : ℝ, r ≠ 0 ∧ D = (r : EReal)) :
    ∑ j ∈ s, Ideal.div (e j) D * v j = Ideal.div (∑ j ∈ s, e j * v j) D := by
  choose er her using he
  choose vr hvr using hv
  obtain ⟨d, hd, rfl⟩ := hD
  have e1 : ∀ j, Ideal.div (e j) (d : EReal) * v j = ((er j * (1 / d) * vr j : ℝ) : EReal) := fun j => by
    rw [Ideal.div_coe hd, her j, hvr j, EReal.coe_mul, EReal.coe_mul]
  have e2 : ∀ j, e j * v j = ((er j * vr j : ℝ) : EReal) := fun j => by rw [her j, hvr j, EReal.coe_mul]
  rw [Ideal.div_coe hd, Finset.sum_congr rfl fun j _ => e1 j, Finset.sum_congr rfl fun j _ => e2 j, ← coe_sum, ← coe_sum,
    ← EReal.coe_mul, Finset.sum_mul]
  exact congrArg _ (Finset.sum_congr rfl fun j _ => by ring)

/-- The word 0x358637BD read as an f32 is a positive real (about one millionth). -/
theorem eps_pos : ∃ r : ℝ, 0 < r ∧ Ideal.ofBits .f32 0x358637BD#32 = (r : EReal) := by
  refine ⟨(8796093 : ℝ) * (2 : ℝ) ^ (-43 : ℤ), by positivity, ?_⟩
  simp [Ideal.ofBits, Ideal.ieee, -EReal.coe_mul]

/-- The word 0x3E000000 read as an f32 is a real (one eighth). -/
theorem c0_real : IsR (Ideal.ofBits .f32 0x3E000000#32) := by
  refine ⟨(1 / 8 : ℝ), ?_⟩
  simp [Ideal.ofBits, Ideal.ieee, -EReal.coe_mul]
  norm_num

/-- A sum of exponentials of real values plus the small positive constant is a nonzero real. -/
theorem denom_ne_zero {ι : Type*} (s : Finset ι) {t : ι → EReal} (ht : ∀ j, IsR (t j)) :
    ∃ r : ℝ, r ≠ 0 ∧ (∑ j ∈ s, Ideal.exp (t j)) + Ideal.ofBits .f32 0x358637BD#32 = (r : EReal) := by
  choose er hpos her using fun j => exp_pos (ht j)
  obtain ⟨ε, hε, hεe⟩ := eps_pos
  refine ⟨(∑ j ∈ s, er j) + ε, ?_, ?_⟩
  · have : 0 ≤ ∑ j ∈ s, er j := Finset.sum_nonneg fun j _ => (hpos j).le
    linarith
  · rw [hεe, EReal.coe_add, coe_sum]
    exact congrArg (· + (ε : EReal)) (Finset.sum_congr rfl fun j _ => her j)

end Cert.KernelIdeal.Alg

end
-- ==== Proof.Rows.lean ====
/-
  The attention block's result written over rows of its inputs.

  With X[b, p, k] the input, W[e, k] the projection weight (rows 0 … 1023 for the queries, 1024 … 2047 for the
  keys, 2048 … 3071 for the values), Wo[e, c] the output weight and P(n, j) the input row that key slot j of
  segment n reads:
  * `proj X W b p e` is the projection Σ_k X[b, p, k] · W[e, k];
  * `sc … b h n s j` is the score of query row 128 n + s against key slot j in head h: the sum over the 64
    channels of (query projection · 1/8) · key projection;
  * `att … b h n s d` is the attention output: the sum over the key slots of exp(score) · value projection,
    divided by (the sum of the exp(score) plus ε);
  * `G … b m e` is the block's result: Σ_c att[b, c / 64, m / 128, m % 128, c % 64] · Wo[e, c].
  The two arrangements the programs compute are brought to this one: the 1/8 applied to the weight before the
  projection instead of after it, and each exponential divided by the denominator before the weighted sum
  instead of the sum divided once.  Both need the inputs to be real numbers.
-/
import Idealize.ShloMosaic.Lib.ValueIdx
import proofs.«144823_j58926951301482_2_alg».proof.Proof.Algebra

noncomputable section

open scoped BigOperators

namespace Cert.KernelIdeal.Rows

open Idealize.ShloMosaic Idealize.ShloMosaic.ValueIdx Cert.KernelIdeal.Alg

/-- The input [2, 8192, 1024], the projection weight [3072, 1024], the output weight [1024, 1024]. -/
abbrev XT := (⟨3, ![2, 8192, 1024]⟩ : Shape).Idx → EReal
abbrev WT := (⟨2, ![3072, 1024]⟩ : Shape).Idx → EReal
abbrev WoT := (⟨2, ![1024, 1024]⟩ : Shape).Idx → EReal

/-- The 1/8 the queries are scaled by and the softmax denominator's ε, as the extended reals their f32 words denote. -/
abbrev c0 : EReal := Ideal.ofBits .f32 0x3E000000#32
abbrev eps : EReal := Ideal.ofBits .f32 0x358637BD#32

/-- The projection of input row (b, p) on weight row e. -/
def proj (X : XT) (W : WT) (b : Fin 2) (p : Fin 8192) (e : Fin 3072) : EReal :=
  ∑ k : Fin 1024, X (ix3 b p k) * W (ix2 e k)

theorem proj_eq (X : XT) (W : WT) {b b' : Fin 2} {p p' : Fin 8192} {e e' : Fin 3072}
    (hb : b.val = b'.val) (hp : p.val = p'.val) (he : e.val = e'.val) : proj X W b p e = proj X W b' p' e' := by
  obtain rfl := Fin.ext hb; obtain rfl := Fin.ext hp; obtain rfl := Fin.ext he; rfl

/-- The score of query row 128 n + s against key slot j, head h. -/
def sc (X : XT) (W : WT) (P : Fin 64 → Fin 64 → Fin 8192) (b : Fin 2) (h : Fin 16) (n : Fin 64) (s : Fin 128) (j : Fin 64) : EReal :=
  ∑ d : Fin 64,
    (proj X W b ⟨n.val * 128 + s.val, by have := n.isLt; have := s.isLt; omega⟩
        ⟨h.val * 64 + d.val, by have := h.isLt; have := d.isLt; omega⟩ * c0)
      * proj X W b (P n j) ⟨1024 + (h.val * 64 + d.val), by have := h.isLt; have := d.isLt; omega⟩

/-- The attention output for query row 128 n + s, head h, channel d. -/
def att (X : XT) (W : WT) (P : Fin 64 → Fin 64 → Fin 8192) (b : Fin 2) (h : Fin 16) (n : Fin 64) (s : Fin 128) (d : Fin 64) : EReal :=
  Ideal.div
    (∑ j : Fin 64, Ideal.exp (sc X W P b h n s j)
      * proj X W b (P n j) ⟨2048 + (h.val * 64 + d.val), by have := h.isLt; have := d.isLt; omega⟩)
    ((∑ j : Fin 64, Ideal.exp (sc X W P b h n s j)) + eps)

theorem att_eq (X : XT) (W : WT) (P : Fin 64 → Fin 64 → Fin 8192) {b b' : Fin 2} {h h' : Fin 16} {n n' : Fin 64}
    {s s' : Fin 128} {d d' : Fin 64} (hb : b.val = b'.val) (hh : h.val = h'.val) (hn : n.val = n'.val)
    (hs : s.val = s'.val) (hd : d.val = d'.val) : att X W P b h n s d = att X W P b' h' n' s' d' := by
  obtain rfl := Fin.ext hb; obtain rfl := Fin.ext hh; obtain rfl := Fin.ext hn; obtain rfl := Fin.ext hs
  obtain rfl := Fin.ext hd; rfl

/-- The block's result at (b, m, e). -/
def G (X : XT) (W : WT) (Wo : WoT) (P : Fin 64 → Fin 64 → Fin 8192) (b : Fin 2) (m : Fin 8192) (e : Fin 1024) : EReal :=
  ∑ c : Fin 1024,
    att X W P b ⟨c.val / 64, by have := c.isLt; omega⟩ ⟨m.val / 128, by have := m.isLt; omega⟩ ⟨m.val % 128, by omega⟩
        ⟨c.val % 64, by omega⟩
      * Wo (ix2 e c)

section Finite
variable {X : XT} {W : WT} (hX : ∀ i, IsR (X i)) (hW : ∀ i, IsR (W i))
include hX hW

/-- A projection of real inputs is real. -/
theorem proj_real (b : Fin 2) (p : Fin 8192) (e : Fin 3072) : IsR (proj X W b p e) :=
  IsR.sum _ fun k => (hX _).mul (hW _)

/-- The projection with the constant applied to the weight first is the projection times the constant. -/
theorem proj_scaled (b : Fin 2) (p : Fin 8192) (e : Fin 3072) :
    ∑ k : Fin 1024, X (ix3 b p k) * (W (ix2 e k) * c0) = proj X W b p e * c0 :=
  (sum_mul_const _ (fun k => hX (ix3 b p k)) (fun k => hW (ix2 e k)) c0_real).symm

/-- A score of real inputs is real. -/
theorem sc_real (P : Fin 64 → Fin 64 → Fin 8192) (b : Fin 2) (h : Fin 16) (n : Fin 64) (s : Fin 128) (j : Fin 64) :
    IsR (sc X W P b h n s j) :=
  IsR.sum _ fun d => ((proj_real hX hW _ _ _).mul c0_real).mul (proj_real hX hW _ _ _)

/-- The weighted sum with each exponential divided by the denominator first is the attention output. -/
theorem att_weights (P : Fin 64 → Fin 64 → Fin 8192) (b : Fin 2) (h : Fin 16) (n : Fin 64) (s : Fin 128) (d : Fin 64) :
    ∑ j : Fin 64, Ideal.div (Ideal.exp (sc X W P b h n s j)) ((∑ j' : Fin 64, Ideal.exp (sc X W P b h n s j')) + eps)
        * proj X W b (P n j) ⟨2048 + (h.val * 64 + d.val), by have := h.isLt; have := d.isLt; omega⟩
      = att X W P b h n s d :=
  sum_div_mul _ (fun j => (sc_real hX hW P b h n s j).exp) (fun j => proj_real hX hW _ _ _)
    (denom_ne_zero _ fun j => sc_real hX hW P b h n s j)

end Finite

end Cert.KernelIdeal.Rows

end
-- ==== Proof.KernelAt.lean ====
/-
  The kernel program's result at coordinates, over rows of its inputs.

  The kernel's term is three matrix products and one attention step joined by re-layouts.  Read at an entry, each
  re-layout names one entry of its operand, so
  * a row of the three projections is a sum over k of an input row times a weight row (the query weight carrying
    the factor 1/8);
  * the query array at (n, bh, s, ·) is the projection of input row 128 n + s of batch bh / 16 on the weight rows of
    head bh % 16, and the key and value arrays at (n, bh, j, ·) are the projections of the input row that key slot j
    of segment n reads;
  * the attention output at (n, bh, s, d) is therefore the attention output of `Rows` for batch bh / 16, head bh % 16;
  * the result at (b, m, e) is the sum over the 1024 columns c = 64 h + d of that output times the output weight.
  The two rearrangements of `Rows` (the constant moved off the weight, the division moved out of the weighted sum)
  are where the inputs have to be real numbers.
-/
import proofs.«144823_j58926951301482_2_alg».proof.Proof.KernelRead
import proofs.«144823_j58926951301482_2_alg».proof.Proof.Rows

noncomputable section

open scoped BigOperators

namespace Cert.KernelIdeal.KernelAt

open Cert.KernelIdeal Idealize.ShloMosaic Idealize.ShloMosaic.ValueIdx

section
variable {X : (⟨S2x8192x1024, .f32⟩ : BufTy).Contents (Elt Ideal)} {W : (⟨S3072x1024, .f32⟩ : BufTy).Contents (Elt Ideal)}

/-- A key projection entry: input row r against weight row 1024 + c. -/
theorem kRows_apply (r : Fin 16384) (c : Fin 1024) :
    Term.kRows X W (ix2 r c)
      = Rows.proj X W ⟨r.val / 8192, by have := r.isLt; omega⟩ ⟨r.val % 8192, by omega⟩ ⟨1024 + c.val, by have := c.isLt; omega⟩ := by
  show ∑ k : Fin 1024, Term.rows X (ix2 r k) * Term.wkT W (ix2 k c) = _
  unfold Rows.proj
  refine Finset.sum_congr rfl fun k _ => ?_
  rw [Term.rows_apply, Term.wkT_apply]

/-- A value projection entry: input row r against weight row 2048 + c. -/
theorem vRows_apply (r : Fin 16384) (c : Fin 1024) :
    Term.vRows X W (ix2 r c)
      = Rows.proj X W ⟨r.val / 8192, by have := r.isLt; omega⟩ ⟨r.val % 8192, by omega⟩ ⟨2048 + c.val, by have := c.isLt; omega⟩ := by
  show ∑ k : Fin 1024, Term.rows X (ix2 r k) * Term.wvT W (ix2 k c) = _
  unfold Rows.proj
  refine Finset.sum_congr rfl fun k _ => ?_
  rw [Term.rows_apply, Term.wvT_apply]

/-- The key array at (n, bh, j, d): the key projection of the input row key slot j of segment n reads. -/
theorem kT_kRows (hm : (⟨S8192, .i32⟩ : BufTy).Contents (Elt Ideal)) (n : Fin 64) (bh : Fin 32) (j : Fin 64) (d : Fin 64) :
    Term.kT (Term.kRows X W) hm (ix4 n bh j d)
      = Rows.proj X W ⟨bh.val / 16, by have := bh.isLt; omega⟩ (Term.keyPos hm n j)
          ⟨1024 + (bh.val % 16 * 64 + d.val), by have := d.isLt; omega⟩ := by
  have := bh.isLt; have := d.isLt; have := (Term.keyPos hm n j).isLt
  rw [Term.kT_apply, kRows_apply]
  exact Rows.proj_eq X W (by dsimp only; omega) (by dsimp only; omega) (by rfl)

/-- The value array at (n, bh, j, d): the value projection of the same input row. -/
theorem kT_vRows (hm : (⟨S8192, .i32⟩ : BufTy).Contents (Elt Ideal)) (n : Fin 64) (bh : Fin 32) (j : Fin 64) (d : Fin 64) :
    Term.kT (Term.vRows X W) hm (ix4 n bh j d)
      = Rows.proj X W ⟨bh.val / 16, by have := bh.isLt; omega⟩ (Term.keyPos hm n j)
          ⟨2048 + (bh.val % 16 * 64 + d.val), by have := d.isLt; omega⟩ := by
  have := bh.isLt; have := d.isLt; have := (Term.keyPos hm n j).isLt
  rw [Term.kT_apply, vRows_apply]
  exact Rows.proj_eq X W (by dsimp only; omega) (by dsimp only; omega) (by rfl)

variable (hX : ∀ i, Alg.IsR (X i)) (hW : ∀ i, Alg.IsR (W i))
include hX hW

/-- A query projection entry: input row r against weight row c, times 1/8 (the factor sits on the weight in the
    program; for real inputs it may be taken out of the sum). -/
theorem qRows_apply (r : Fin 16384) (c : Fin 1024) :
    Term.qRows X W (ix2 r c)
      = Rows.proj X W ⟨r.val / 8192, by have := r.isLt; omega⟩ ⟨r.val % 8192, by omega⟩ ⟨c.val, by have := c.isLt; omega⟩ * Rows.c0 := by
  show ∑ k : Fin 1024, Term.rows X (ix2 r k) * Term.wqT W (ix2 k c) = _
  rw [← Rows.proj_scaled hX hW]
  refine Finset.sum_congr rfl fun k _ => ?_
  rw [Term.rows_apply, Term.wqT_apply]
  rfl

/-- The query array at (n, bh, s, d): the scaled query projection of input row 128 n + s. -/
theorem qT_qRows (n : Fin 64) (bh : Fin 32) (s : Fin 128) (d : Fin 64) :
    Term.qT (Term.qRows X W) (ix4 n bh s d)
      = Rows.proj X W ⟨bh.val / 16, by have := bh.isLt; omega⟩ ⟨n.val * 128 + s.val, by have := n.isLt; have := s.isLt; omega⟩
          ⟨bh.val % 16 * 64 + d.val, by have := d.isLt; omega⟩ * Rows.c0 := by
  have := bh.isLt; have := n.isLt; have := s.isLt; have := d.isLt
  rw [Term.qT_apply, qRows_apply hX hW]
  exact congrArg (· * Rows.c0) (Rows.proj_eq X W (by dsimp only; omega) (by dsimp only; omega) (by rfl))

/-- The score of the kernel's query and key arrays is the score over rows. -/
theorem score_eq (hm : (⟨S8192, .i32⟩ : BufTy).Contents (Elt Ideal)) (n : Fin 64) (bh : Fin 32) (s : Fin 128) (j : Fin 64) :
    Spec.score (Term.qT (Term.qRows X W)) (Term.kT (Term.kRows X W) hm) n bh s j
      = Rows.sc X W (Term.keyPos hm) ⟨bh.val / 16, by have := bh.isLt; omega⟩ ⟨bh.val % 16, by omega⟩ n s j := by
  unfold Spec.score Rows.sc
  refine Finset.sum_congr rfl fun d _ => ?_
  exact congrArg₂ (· * ·) (qT_qRows hX hW n bh s d) (kT_kRows hm n bh j d)

/-- The kernel's attention output at (n, bh, s, d) is the attention output over rows for batch bh / 16, head bh % 16. -/
theorem attnOut_apply (hm : (⟨S8192, .i32⟩ : BufTy).Contents (Elt Ideal)) (n : Fin 64) (bh : Fin 32) (s : Fin 128) (d : Fin 64) :
    Term.attnOut X W hm (ix4 n bh s d)
      = Rows.att X W (Term.keyPos hm) ⟨bh.val / 16, by have := bh.isLt; omega⟩ ⟨bh.val % 16, by omega⟩ n s d := by
  show ∑ j : Fin 64, Spec.weight (Term.qT (Term.qRows X W)) (Term.kT (Term.kRows X W) hm) n bh s j
      * Term.kT (Term.vRows X W) hm (ix4 n bh j d) = _
  rw [← Rows.att_weights hX hW]
  refine Finset.sum_congr rfl fun j _ => ?_
  unfold Spec.weight
  rw [kT_vRows]
  simp only [score_eq hX hW]
  rfl

end

/-- The kernel program's result at (b, m, e), for real inputs. -/
theorem kernel_at (X : (⟨S2x8192x1024, .f32⟩ : BufTy).Contents (Elt Ideal)) (W : (⟨S3072x1024, .f32⟩ : BufTy).Contents (Elt Ideal))
    (Wo : (⟨S1024x1024, .f32⟩ : BufTy).Contents (Elt Ideal)) (hm : (⟨S8192, .i32⟩ : BufTy).Contents (Elt Ideal))
    (hX : ∀ i, Alg.IsR (X i)) (hW : ∀ i, Alg.IsR (W i)) (b : Fin 2) (m : Fin 8192) (e : Fin 1024) :
    Term.kernelValue X W Wo hm (ix3 b m e) = Rows.G X W Wo (Term.keyPos hm) b m e := by
  have := b.isLt; have := m.isLt
  unfold Term.kernelValue
  rw [Term.out3_apply]
  show ∑ c : Fin 1024, Term.aoT (Term.attnOut X W hm) (ix2 (⟨b.val * 8192 + m.val, _⟩ : Fin 16384) c) * Term.woT Wo (ix2 c e) = _
  unfold Rows.G
  refine Finset.sum_congr rfl fun c _ => ?_
  have := c.isLt
  rw [Term.aoT_apply, Term.woT_apply, attnOut_apply hX hW]
  exact congrArg (· * Wo (ix2 e c)) (Rows.att_eq X W _ (by dsimp only; omega) (by dsimp only; omega) (by dsimp only; omega)
    (by dsimp only; omega) (by rfl))

end Cert.KernelIdeal.KernelAt

end
-- ==== Proof.RefSide.lean ====
/-
  The reference program's result read at coordinates.

  Each stage of the reference is read at an index through the generated stage lemmas; the reshapes,
  transposes and slices between the arithmetic stages are index maps, each decided by integer arithmetic on
  the coordinates.  The three slices of the projection are rows 64 h + d, 1024 + 64 h + d and
  2048 + 64 h + d of the weight; the two row gathers read the input row min(start, 8191) of the shared
  start-index table; the host's sum contributes its initial value, the zero word, which is 0.
  The result at (b, m, e) is `Rows.G` at the gathered rows.
-/
import proofs.«144823_j58926951301482_2_alg».proof.Proof.KernelTerm
import proofs.«144823_j58926951301482_2_alg».proof.Proof.Gen.ReferenceIdeal.Read
import proofs.«144823_j58926951301482_2_alg».proof.Proof.Rows

noncomputable section

open scoped BigOperators

namespace Cert.KernelIdeal.RefSide

open Idealize.ShloMosaic Idealize.ShloMosaic.ValueIdx Cert.KernelIdeal.Rows Cert.ReferenceIdeal.Read

/-! ## The index maps at coordinates -/

/-- Closes one coordinate of an index-map equation: unfold the maps to arithmetic, then decide it. -/
local macro "coord" : tactic =>
  `(tactic| first
    | (dsimp only [idx_main_v1, idx_main_v2, idx_main_v3, idx_main_v4, idx_main_v7, idx_main_v8, idx_main_v9, idx_main_v10,
        idx_main_v29, idx_main_v53, idx_main_v54, idx_main_v55, ix2, ix3, ix4, ix5]; omega)
    | rfl)

theorem idx1_at (b : Fin 2) (p : Fin 8192) (t : Fin 3) (h : Fin 16) (d : Fin 64) :
    idx_main_v1 (ix5 b p t h d)
      = ix3 b p (⟨t.val * 1024 + (h.val * 64 + d.val), by have := t.isLt; have := h.isLt; have := d.isLt; omega⟩ : Fin 3072) := by
  funext a; refine Fin.ext ?_
  have hb := b.isLt; have hp := p.isLt; have ht := t.isLt; have hh := h.isLt; have hd := d.isLt
  match a with
  | ⟨0, _⟩ => coord
  | ⟨1, _⟩ => coord
  | ⟨2, _⟩ => coord

theorem idx2_at (t : Fin 3) (b : Fin 2) (h : Fin 16) (p : Fin 8192) (d : Fin 64) :
    idx_main_v2 (ix5 t b h p d) = ix5 b p t h d := by
  funext a; refine Fin.ext ?_
  match a with
  | ⟨0, _⟩ => rfl
  | ⟨1, _⟩ => rfl
  | ⟨2, _⟩ => rfl
  | ⟨3, _⟩ => rfl
  | ⟨4, _⟩ => rfl

theorem idx3_at (b : Fin 2) (h : Fin 16) (p : Fin 8192) (d : Fin 64) :
    idx_main_v3 (ix5 (0 : Fin 1) b h p d) = ix5 (⟨0, by omega⟩ : Fin 3) b h p d := by
  funext a; refine Fin.ext ?_
  match a with
  | ⟨0, _⟩ => rfl
  | ⟨1, _⟩ => rfl
  | ⟨2, _⟩ => rfl
  | ⟨3, _⟩ => rfl
  | ⟨4, _⟩ => rfl

theorem idx7_at (b : Fin 2) (h : Fin 16) (p : Fin 8192) (d : Fin 64) :
    idx_main_v7 (ix5 (0 : Fin 1) b h p d) = ix5 (⟨1, by omega⟩ : Fin 3) b h p d := by
  funext a; refine Fin.ext ?_
  match a with
  | ⟨0, _⟩ => rfl
  | ⟨1, _⟩ => rfl
  | ⟨2, _⟩ => rfl
  | ⟨3, _⟩ => rfl
  | ⟨4, _⟩ => rfl

theorem idx9_at (b : Fin 2) (h : Fin 16) (p : Fin 8192) (d : Fin 64) :
    idx_main_v9 (ix5 (0 : Fin 1) b h p d) = ix5 (⟨2, by omega⟩ : Fin 3) b h p d := by
  funext a; refine Fin.ext ?_
  match a with
  | ⟨0, _⟩ => rfl
  | ⟨1, _⟩ => rfl
  | ⟨2, _⟩ => rfl
  | ⟨3, _⟩ => rfl
  | ⟨4, _⟩ => rfl

theorem idx4_at (b : Fin 2) (h : Fin 16) (p : Fin 8192) (d : Fin 64) :
    idx_main_v4 (ix4 b h p d) = ix5 (0 : Fin 1) b h p d := by
  funext a; refine Fin.ext ?_
  have hb := b.isLt; have hh := h.isLt; have hp := p.isLt; have hd := d.isLt
  match a with
  | ⟨0, _⟩ => coord
  | ⟨1, _⟩ => coord
  | ⟨2, _⟩ => coord
  | ⟨3, _⟩ => coord
  | ⟨4, _⟩ => coord

theorem idx8_at (b : Fin 2) (h : Fin 16) (p : Fin 8192) (d : Fin 64) :
    idx_main_v8 (ix4 b h p d) = ix5 (0 : Fin 1) b h p d := idx4_at b h p d

theorem idx10_at (b : Fin 2) (h : Fin 16) (p : Fin 8192) (d : Fin 64) :
    idx_main_v10 (ix4 b h p d) = ix5 (0 : Fin 1) b h p d := idx4_at b h p d

theorem idx29_at (b : Fin 2) (h : Fin 16) (n : Fin 64) (s : Fin 128) (d : Fin 64) :
    idx_main_v29 (ix5 b h n s d)
      = ix4 b h (⟨n.val * 128 + s.val, by have := n.isLt; have := s.isLt; omega⟩ : Fin 8192) d := by
  funext a; refine Fin.ext ?_
  have hb := b.isLt; have hh := h.isLt; have hn := n.isLt; have hs := s.isLt; have hd := d.isLt
  match a with
  | ⟨0, _⟩ => coord
  | ⟨1, _⟩ => coord
  | ⟨2, _⟩ => coord
  | ⟨3, _⟩ => coord

theorem idx53_at (b : Fin 2) (h : Fin 16) (m : Fin 8192) (d : Fin 64) :
    idx_main_v53 (ix4 b h m d)
      = ix5 b h (⟨m.val / 128, by have := m.isLt; omega⟩ : Fin 64) (⟨m.val % 128, by omega⟩ : Fin 128) d := by
  funext a; refine Fin.ext ?_
  have hb := b.isLt; have hh := h.isLt; have hm := m.isLt; have hd := d.isLt
  match a with
  | ⟨0, _⟩ => coord
  | ⟨1, _⟩ => coord
  | ⟨2, _⟩ => coord
  | ⟨3, _⟩ => coord
  | ⟨4, _⟩ => coord

theorem idx54_at (b : Fin 2) (m : Fin 8192) (h : Fin 16) (d : Fin 64) :
    idx_main_v54 (ix4 b m h d) = ix4 b h m d := by
  funext a; refine Fin.ext ?_
  match a with
  | ⟨0, _⟩ => rfl
  | ⟨1, _⟩ => rfl
  | ⟨2, _⟩ => rfl
  | ⟨3, _⟩ => rfl

theorem idx55_at (b : Fin 2) (m : Fin 8192) (c : Fin 1024) :
    idx_main_v55 (ix3 b m c)
      = ix4 b m (⟨c.val / 64, by have := c.isLt; omega⟩ : Fin 16) (⟨c.val % 64, by omega⟩ : Fin 64) := by
  funext a; refine Fin.ext ?_
  have hb := b.isLt; have hm := m.isLt; have hc := c.isLt
  match a with
  | ⟨0, _⟩ => coord
  | ⟨1, _⟩ => coord
  | ⟨2, _⟩ => coord
  | ⟨3, _⟩ => coord

/-! ## The stages at coordinates -/

variable (X : (⟨S2x8192x1024, .f32⟩ : BufTy).Contents (Elt Ideal)) (W : (⟨S3072x1024, .f32⟩ : BufTy).Contents (Elt Ideal))
  (Wo : (⟨S1024x1024, .f32⟩ : BufTy).Contents (Elt Ideal)) (hm : (⟨S8192, .i32⟩ : BufTy).Contents (Elt Ideal))

/-- The projection stage at (b, p, e). -/
theorem v0_at (b : Fin 2) (p : Fin 8192) (e : Fin 3072) :
    val_main_v0 (F := Ideal) X W (ix3 b p e) = proj X W b p e := by
  rw [val_main_v0_apply]
  unfold proj
  refine Finset.sum_congr rfl fun k _ => ?_
  refine congrArg₂ (· * ·) (congrArg X ?_) (congrArg W ?_)
  · funext a; refine Fin.ext ?_
    match a with
    | ⟨0, _⟩ => rfl
    | ⟨1, _⟩ => rfl
    | ⟨2, _⟩ => rfl
  · funext a; refine Fin.ext ?_
    match a with
    | ⟨0, _⟩ => rfl
    | ⟨1, _⟩ => rfl

/-- The projection re-laid as [slice, b, h, p, d]: slice t, head h, channel d is weight row 1024 t + 64 h + d. -/
theorem v2_at (t : Fin 3) (b : Fin 2) (h : Fin 16) (p : Fin 8192) (d : Fin 64) :
    val_main_v2 (F := Ideal) X W (ix5 t b h p d)
      = proj X W b p ⟨t.val * 1024 + (h.val * 64 + d.val), by have := t.isLt; have := h.isLt; have := d.isLt; omega⟩ := by
  rw [val_main_v2_apply, idx2_at, val_main_v1_apply, idx1_at, v0_at]

/-- The query slice. -/
theorem v4_at (b : Fin 2) (h : Fin 16) (p : Fin 8192) (d : Fin 64) :
    val_main_v4 (F := Ideal) X W (ix4 b h p d)
      = proj X W b p ⟨h.val * 64 + d.val, by have := h.isLt; have := d.isLt; omega⟩ := by
  rw [val_main_v4_apply, idx4_at, val_main_v3_apply, idx3_at, v2_at]
  exact proj_eq X W rfl rfl (by dsimp only <;> omega)

/-- The key slice. -/
theorem v8_at (b : Fin 2) (h : Fin 16) (p : Fin 8192) (d : Fin 64) :
    val_main_v8 (F := Ideal) X W (ix4 b h p d)
      = proj X W b p ⟨1024 + (h.val * 64 + d.val), by have := h.isLt; have := d.isLt; omega⟩ := by
  rw [val_main_v8_apply, idx8_at, val_main_v7_apply, idx7_at, v2_at]
  exact proj_eq X W rfl rfl (by dsimp only <;> omega)

/-- The value slice. -/
theorem v10_at (b : Fin 2) (h : Fin 16) (p : Fin 8192) (d : Fin 64) :
    val_main_v10 (F := Ideal) X W (ix4 b h p d)
      = proj X W b p ⟨2048 + (h.val * 64 + d.val), by have := h.isLt; have := d.isLt; omega⟩ := by
  rw [val_main_v10_apply, idx10_at, val_main_v9_apply, idx9_at, v2_at]
  exact proj_eq X W rfl rfl (by dsimp only <;> omega)

/-- The scaled queries, by segment and row. -/
theorem v29_at (b : Fin 2) (h : Fin 16) (n : Fin 64) (s : Fin 128) (d : Fin 64) :
    val_main_v29 (F := Ideal) X W (ix5 b h n s d)
      = proj X W b ⟨n.val * 128 + s.val, by have := n.isLt; have := s.isLt; omega⟩
          ⟨h.val * 64 + d.val, by have := h.isLt; have := d.isLt; omega⟩ * c0 := by
  rw [val_main_v29_apply, idx29_at, val_main_v6_apply, v4_at, val_main_v5_apply, val_main_cst_apply]
  rfl

/-! ## The row gathers -/

/-- The input row key slot j of segment n reads: the start index read as a signed integer, clamped into [0, 8191]. -/
def pos (hm : (⟨S8192, .i32⟩ : BufTy).Contents (Elt Ideal)) (n j : Fin 64) : Fin 8192 :=
  ⟨min (Term.keyStart hm (ix3 n j (0 : Fin 1))).toInt.toNat 8191, by omega⟩

/-- Both gathers' start indices are the kernel program's table: the two programs compute it by the same operations. -/
theorem key35 : val_main_v35 (F := Ideal) hm = Term.keyStart hm := rfl
theorem key42 : val_main_v42 (F := Ideal) hm = Term.keyStart hm := rfl

/-- The reference's dimension numbers for picking rows of a [2, 16, 8192, 64] array by a [64, 64, 1] table. -/
abbrev GR := Cert.ReferenceIdeal.gather_S2x16x8192x64_S64x64x1_S2x16x64x64x64_014_2_n_n_2_2_216164

/-- The row gather at (b, h, n, j, d): the operand at row min(start[n, j, 0], 8191), the other coordinates unchanged. -/
theorem refGather_apply {α : Type} (x : Cert.ReferenceIdeal.S2x16x8192x64.Idx → α) (idx : IVec Cert.ReferenceIdeal.S64x64x1 32)
    (b : Fin 2) (h : Fin 16) (n j d : Fin 64) :
    Host.gather GR x idx (ix5 b h n j d)
      = x (ix4 b h (⟨min (idx (ix3 n j (0 : Fin 1))).toInt.toNat 8191, by omega⟩ : Fin 8192) d) := by
  unfold Host.gather
  refine congrArg x (funext fun a => Fin.ext ?_)
  show GR.start (ix5 b h n j d) idx a + GR.batchCoord (ix5 b h n j d) a + GR.offCoord (ix5 b h n j d) a = _
  rw [GatherDims.batchCoord_eq_zero _ _ _ List.not_mem_nil, Nat.add_zero]
  match a with
  | ⟨0, _⟩ =>
    show GR.start (ix5 b h n j d) idx (0 : Fin 4) + GR.offCoord (ix5 b h n j d) (0 : Fin 4) = b.val
    unfold GatherDims.start GatherDims.offCoord
    rw [dif_neg (by decide), dif_pos (by decide), Nat.zero_add]
    rfl
  | ⟨1, _⟩ =>
    show GR.start (ix5 b h n j d) idx (1 : Fin 4) + GR.offCoord (ix5 b h n j d) (1 : Fin 4) = h.val
    unfold GatherDims.start GatherDims.offCoord
    rw [dif_neg (by decide), dif_pos (by decide), Nat.zero_add]
    rfl
  | ⟨2, _⟩ =>
    show GR.start (ix5 b h n j d) idx (2 : Fin 4) + GR.offCoord (ix5 b h n j d) (2 : Fin 4)
      = min (idx (ix3 n j (0 : Fin 1))).toInt.toNat 8191
    rw [GatherDims.offCoord_eq_zero _ _ _ (by decide), Nat.add_zero]
    unfold GatherDims.start
    rw [dif_pos (show (2 : Fin 4) ∈ GR.startIndexMap from List.mem_singleton.mpr rfl)]
    have hsi : GR.siIdx (ix5 b h n j d) ⟨List.idxOf (2 : Fin 4) GR.startIndexMap,
        List.idxOf_lt_length_iff.2 (List.mem_singleton.mpr rfl)⟩ = ix3 n j (0 : Fin 1) := by
      funext c; refine Fin.ext ?_
      match c with
      | ⟨0, _⟩ => rfl
      | ⟨1, _⟩ => rfl
      | ⟨2, _⟩ => rfl
    rw [hsi]
    rfl
  | ⟨3, _⟩ =>
    show GR.start (ix5 b h n j d) idx (3 : Fin 4) + GR.offCoord (ix5 b h n j d) (3 : Fin 4) = d.val
    unfold GatherDims.start GatherDims.offCoord
    rw [dif_neg (by decide), dif_pos (by decide), Nat.zero_add]
    rfl

/-- The gathered keys. -/
theorem v36_at (b : Fin 2) (h : Fin 16) (n j d : Fin 64) :
    val_main_v36 (F := Ideal) X W hm (ix5 b h n j d)
      = proj X W b (pos hm n j) ⟨1024 + (h.val * 64 + d.val), by have := h.isLt; have := d.isLt; omega⟩ := by
  unfold val_main_v36
  rw [key35, refGather_apply]
  exact v8_at X W b h (pos hm n j) d

/-- The gathered values. -/
theorem v43_at (b : Fin 2) (h : Fin 16) (n j d : Fin 64) :
    val_main_v43 (F := Ideal) X W hm (ix5 b h n j d)
      = proj X W b (pos hm n j) ⟨2048 + (h.val * 64 + d.val), by have := h.isLt; have := d.isLt; omega⟩ := by
  unfold val_main_v43
  rw [key42, refGather_apply]
  exact v10_at X W b h (pos hm n j) d

/-! ## Scores, weights, output -/

/-- The scores. -/
theorem v44_at (b : Fin 2) (h : Fin 16) (n : Fin 64) (s : Fin 128) (j : Fin 64) :
    val_main_v44 (F := Ideal) X W hm (ix5 b h n s j) = sc X W (pos hm) b h n s j := by
  rw [val_main_v44_apply]
  unfold sc
  refine Finset.sum_congr rfl fun k _ => ?_
  have e1 : lidx_main_v44 (ix5 b h n s j) k = ix5 b h n s k := by
    funext a; refine Fin.ext ?_
    match a with
    | ⟨0, _⟩ => rfl
    | ⟨1, _⟩ => rfl
    | ⟨2, _⟩ => rfl
    | ⟨3, _⟩ => rfl
    | ⟨4, _⟩ => rfl
  have e2 : ridx_main_v44 (ix5 b h n s j) k = ix5 b h n j k := by
    funext a; refine Fin.ext ?_
    match a with
    | ⟨0, _⟩ => rfl
    | ⟨1, _⟩ => rfl
    | ⟨2, _⟩ => rfl
    | ⟨3, _⟩ => rfl
    | ⟨4, _⟩ => rfl
  rw [e1, e2, v29_at, v36_at]

/-- The exponentials' sum: the host's sum starts from the zero word, which is 0. -/
theorem v47_at (b : Fin 2) (h : Fin 16) (n : Fin 64) (s : Fin 128) :
    val_main_v47 (F := Ideal) X W hm (ix4 b h n s) = ∑ j : Fin 64, Ideal.exp (sc X W (pos hm) b h n s j) := by
  rw [val_main_v47_apply, val_main_cst_7_apply]
  show Ideal.ofBits .f32 0x00000000#32 + _ = _
  rw [Ideal.ofBits_zero_f32, zero_add]
  refine Finset.sum_congr rfl fun k _ => ?_
  have e1 : idx_main_v47 (ix4 b h n s) k = ix5 b h n s k := by
    funext a; refine Fin.ext ?_
    match a with
    | ⟨0, _⟩ => rfl
    | ⟨1, _⟩ => rfl
    | ⟨2, _⟩ => rfl
    | ⟨3, _⟩ => rfl
    | ⟨4, _⟩ => rfl
  rw [e1, val_main_v45_apply, v44_at]
  rfl

/-- The weighted sum of the value rows, before the division. -/
theorem v46_at (b : Fin 2) (h : Fin 16) (n : Fin 64) (s : Fin 128) (d : Fin 64) :
    val_main_v46 (F := Ideal) X W hm (ix5 b h n s d)
      = ∑ j : Fin 64, Ideal.exp (sc X W (pos hm) b h n s j)
          * proj X W b (pos hm n j) ⟨2048 + (h.val * 64 + d.val), by have := h.isLt; have := d.isLt; omega⟩ := by
  rw [val_main_v46_apply]
  refine Finset.sum_congr rfl fun k _ => ?_
  have e1 : lidx_main_v46 (ix5 b h n s d) k = ix5 b h n s k := by
    funext a; refine Fin.ext ?_
    match a with
    | ⟨0, _⟩ => rfl
    | ⟨1, _⟩ => rfl
    | ⟨2, _⟩ => rfl
    | ⟨3, _⟩ => rfl
    | ⟨4, _⟩ => rfl
  have e2 : ridx_main_v46 (ix5 b h n s d) k = ix5 b h n k d := by
    funext a; refine Fin.ext ?_
    match a with
    | ⟨0, _⟩ => rfl
    | ⟨1, _⟩ => rfl
    | ⟨2, _⟩ => rfl
    | ⟨3, _⟩ => rfl
    | ⟨4, _⟩ => rfl
  rw [e1, e2, val_main_v45_apply, v44_at, v43_at]
  rfl

/-- The denominator, broadcast along the channel. -/
theorem v51_at (b : Fin 2) (h : Fin 16) (n : Fin 64) (s : Fin 128) (d : Fin 64) :
    val_main_v51 (F := Ideal) X W hm (ix5 b h n s d)
      = (∑ j : Fin 64, Ideal.exp (sc X W (pos hm) b h n s j)) + eps := by
  have e1 : idx_main_v51 (ix5 b h n s d) = ix5 b h n s (0 : Fin 1) := by
    funext a; refine Fin.ext ?_
    match a with
    | ⟨0, _⟩ => rfl
    | ⟨1, _⟩ => rfl
    | ⟨2, _⟩ => rfl
    | ⟨3, _⟩ => rfl
    | ⟨4, _⟩ => rfl
  have e2 : idx_main_v48 (ix5 b h n s (0 : Fin 1)) = ix4 b h n s := by
    funext a; refine Fin.ext ?_
    match a with
    | ⟨0, _⟩ => rfl
    | ⟨1, _⟩ => rfl
    | ⟨2, _⟩ => rfl
    | ⟨3, _⟩ => rfl
  rw [val_main_v51_apply, e1, val_main_v50_apply, val_main_v48_apply, e2, v47_at, val_main_v49_apply, val_main_cst_8_apply]
  rfl

/-- The attention output, by segment and row. -/
theorem v52_at (b : Fin 2) (h : Fin 16) (n : Fin 64) (s : Fin 128) (d : Fin 64) :
    val_main_v52 (F := Ideal) X W hm (ix5 b h n s d) = att X W (pos hm) b h n s d := by
  rw [val_main_v52_apply, v46_at, v51_at]
  rfl

/-- The attention output back in rows [b, m, 64 h + d]. -/
theorem v55_at (b : Fin 2) (m : Fin 8192) (c : Fin 1024) :
    val_main_v55 (F := Ideal) X W hm (ix3 b m c)
      = att X W (pos hm) b ⟨c.val / 64, by have := c.isLt; omega⟩ ⟨m.val / 128, by have := m.isLt; omega⟩
          ⟨m.val % 128, by omega⟩ ⟨c.val % 64, by omega⟩ := by
  rw [val_main_v55_apply, idx55_at, val_main_v54_apply, idx54_at, val_main_v53_apply, idx53_at, v52_at]

/-- The reference's result at (b, m, e). -/
theorem ref_at (b : Fin 2) (m : Fin 8192) (e : Fin 1024) :
    val_main_v56 (F := Ideal) X W Wo hm (ix3 b m e) = G X W Wo (pos hm) b m e := by
  rw [val_main_v56_apply]
  unfold G
  refine Finset.sum_congr rfl fun c _ => ?_
  have e1 : lidx_main_v56 (ix3 b m e) c = ix3 b m c := by
    funext a; refine Fin.ext ?_
    match a with
    | ⟨0, _⟩ => rfl
    | ⟨1, _⟩ => rfl
    | ⟨2, _⟩ => rfl
  have e2 : ridx_main_v56 (ix3 b m e) c = ix2 e c := by
    funext a; refine Fin.ext ?_
    match a with
    | ⟨0, _⟩ => rfl
    | ⟨1, _⟩ => rfl
  rw [e1, e2, v55_at]

end Cert.KernelIdeal.RefSide

end
-- ==== Proof.Bridge.lean ====
/-
  The kernel program's result and the reference's are one function of real inputs.

  At every index (b, m, e) both are the closed form `Rows.G`: the kernel's term reaches it through the two
  laws that need finite values (the 1/8 moved across the projection's sum; the division moved across the
  weighted sum), the reference's reaches it by reading its stages at coordinates.  The two programs read the
  same rows of the input for their keys and values, because they compute the start-index table by the same
  operations and clamp it the same way.
-/
import proofs.«144823_j58926951301482_2_alg».proof.Proof.KernelAt
import proofs.«144823_j58926951301482_2_alg».proof.Proof.RefSide

noncomputable section

namespace Cert.KernelIdeal.Bridge

open Idealize.ShloMosaic Idealize.ShloMosaic.ValueIdx

/-- The rows the reference's gathers read are the rows the kernel program's gathers read. -/
theorem pos_eq (hm : (⟨S8192, .i32⟩ : BufTy).Contents (Elt Ideal)) : RefSide.pos hm = Term.keyPos hm := rfl

/-- For real inputs the kernel program's result is the reference's. -/
theorem bridge (X : (⟨S2x8192x1024, .f32⟩ : BufTy).Contents (Elt Ideal)) (W : (⟨S3072x1024, .f32⟩ : BufTy).Contents (Elt Ideal))
    (Wo : (⟨S1024x1024, .f32⟩ : BufTy).Contents (Elt Ideal)) (hm : (⟨S8192, .i32⟩ : BufTy).Contents (Elt Ideal))
    (hX : ∀ i, ∃ r : ℝ, X i = (r : EReal)) (hW : ∀ i, ∃ r : ℝ, W i = (r : EReal)) (hWo : ∀ i, ∃ r : ℝ, Wo i = (r : EReal)) :
    Cert.KernelIdeal.Term.kernelValue X W Wo hm = Cert.ReferenceIdeal.Read.val_main_v56 (F := Ideal) X W Wo hm := by
  funext i
  obtain ⟨b, m, e, rfl⟩ : ∃ (b : Fin 2) (m : Fin 8192) (e : Fin 1024), i = ix3 b m e := ⟨i 0, i 1, i 2, eq_ix3 i⟩
  rw [KernelAt.kernel_at X W Wo hm hX hW b m e, RefSide.ref_at X W Wo hm b m e, pos_eq]

end Cert.KernelIdeal.Bridge

end
-- ==== Proof.Finite.lean ====
/-
  The precondition read element by element: every entry of the three float arguments is a real number.
  The precondition is the conjunction of three "all entries satisfy |x| < +∞"; an extended real whose absolute
  value max x (−x) lies below +∞ is neither +∞ nor −∞.
-/
import proofs.«144823_j58926951301482_2_alg».proof.Defs
import proofs.«144823_j58926951301482_2_alg».proof.Proof.Gen.Pre_finite_inputs
import Idealize.ShloMosaic.Lib.ReduceAll
import Idealize.ShloMosaic.Lib.Affine
import Idealize.ShloMosaic.Lib.ValueIdx

noncomputable section

namespace Cert.Pre_finite_inputs.Finite

open Cert.Pre_finite_inputs Cert.Pre_finite_inputs.Facts Idealize.ShloMosaic Idealize.ShloMosaic.ValueIdx

instance : Subsingleton S_.Idx := ⟨fun a b => funext fun d => d.elim0⟩

/-- An extended real whose absolute value is below the f32 pattern of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of the three float arguments is a real number. -/
theorem reals (x0 : FVec Ideal S2x8192x1024 .f32) (x1 : FVec Ideal S3072x1024 .f32) (x2 : FVec Ideal S1024x1024 .f32)
    (x3 : IVec S8192 32) (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [fn] at h0
  obtain ⟨h01, h2⟩ := IntOp.andi_eq_one.1 h0
  obtain ⟨h0', h1⟩ := IntOp.andi_eq_one.1 h01
  refine ⟨fun i => real_of_abs_lt _ ?_, fun i => real_of_abs_lt _ ?_, fun i => real_of_abs_lt _ ?_⟩
  · exact Host.reduce_andi_all _ _ _ _ _ h0' i
  · exact Host.reduce_andi_all _ _ _ _ _ h1 i
  · exact Host.reduce_andi_all _ _ _ _ _ h2 i

end Cert.Pre_finite_inputs.Finite

end
-- ==== Proof.lean ====
/-
  Equivalence of the three-stage attention kernel and its array reference over the extended reals.

  The kernel projects the input rows to queries (pre-scaled by 1/8), keys and values, re-lays them by segment and head,
  gathers the dilated key and value rows through the position map, runs softmax-without-max attention per segment
  (weights normalised before the product with the values), re-lays the result as rows and projects it out.  The
  reference computes the same quantities in another arrangement: it scales the query projection afterwards and divides
  the weighted value sum by the denominator.  For real-valued inputs — which the precondition guarantees — the two
  arrangements agree: (Σ x·w)·c = Σ x·(w·c), and Σ (e_j / D)·v_j = (Σ e_j·v_j) / D for D ≠ 0.

  * the three frames: the kernel programs' generated frame certificates; the reference's generated run;
  * nothing was rewritten between the word-level kernel and its reading over the extended reals;
  * the value claim: the kernel's run with its result named (`Run.run_result`), that result as the kernel's term of the
    arguments (`Fold.result_eq`), the reference's run, and the two terms one function (`Bridge.bridge`) on inputs
    whose entries are reals (`Finite.reals`).
-/
import proofs.«144823_j58926951301482_2_alg».proof.Defs
import proofs.«144823_j58926951301482_2_alg».proof.Proof.Gen.Kernel
import proofs.«144823_j58926951301482_2_alg».proof.Proof.Gen.Kernel.Skeleton
import proofs.«144823_j58926951301482_2_alg».proof.Proof.Gen.Kernel.Launch
import proofs.«144823_j58926951301482_2_alg».proof.Proof.Gen.Kernel.Points
import proofs.«144823_j58926951301482_2_alg».proof.Proof.Gen.Kernel.Frame
import proofs.«144823_j58926951301482_2_alg».proof.Proof.Gen.KernelIdeal
import proofs.«144823_j58926951301482_2_alg».proof.Proof.Gen.KernelIdeal.Skeleton
import proofs.«144823_j58926951301482_2_alg».proof.Proof.Gen.KernelIdeal.Launch
import proofs.«144823_j58926951301482_2_alg».proof.Proof.Gen.KernelIdeal.Points
import proofs.«144823_j58926951301482_2_alg».proof.Proof.Gen.KernelIdeal.Frame
import proofs.«144823_j58926951301482_2_alg».proof.Proof.Gen.ReferenceIdeal
import proofs.«144823_j58926951301482_2_alg».proof.Proof.Gen.ReferenceIdeal.Run
import proofs.«144823_j58926951301482_2_alg».proof.Proof.Gen.ReferenceIdeal.Read
import proofs.«144823_j58926951301482_2_alg».proof.Proof.Gen.Pre_finite_inputs
import proofs.«144823_j58926951301482_2_alg».proof.Proof.KernelRun
import proofs.«144823_j58926951301482_2_alg».proof.Proof.KernelValue
import proofs.«144823_j58926951301482_2_alg».proof.Proof.Bridge
import proofs.«144823_j58926951301482_2_alg».proof.Proof.Finite
import Idealize.ShloMosaic.Adequacy
import Idealize.ShloMosaic.Init

noncomputable section

namespace Cert.Proof

open Idealize.ShloMosaic Idealize.SL.Sem

/-- The word-level kernel program runs, faults nowhere and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of array operations: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals both programs end with the same array: the kernel's run leaves its term of the four
    arguments in the result buffer, the reference's run its own term of arguments that agree with the kernel's, and
    for real-valued arguments — which the precondition gives — the two terms are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Term.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Fold.result_eq m ρ c), (h c).2⟩)
      (Cert.KernelIdeal.Run.run_result (F := Ideal) m ρ)
  · refine (θ_run Cert.ReferenceIdeal.defs _ _).mono (fun _ h c => ⟨?_, (h c).2⟩)
      (Cert.ReferenceIdeal.Value.run (F := Ideal) m' ρ')
    obtain ⟨hX, hW, hWo⟩ := Cert.Pre_finite_inputs.Finite.reals _ _ _ _ (hpre c)
    rw [(h c).1, Cert.ReferenceIdeal.Read.val_main_v56_eq, (hagree c).1, (hagree c).2.1, (hagree c).2.2.1, (hagree c).2.2.2]
    exact (Cert.KernelIdeal.Bridge.bridge _ _ _ _ hX hW hWo).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
